-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S8x128x64 : Shape := ⟨3, ![8, 128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S8x128x64 : S_.BroadcastsInDim S8x128x64 (![] : Fin 0 → Fin S8x128x64.rank)
  reducesTo_S8x128x64_S_d0_1_2 : S8x128x64.ReducesTo [0, 1, 2] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x128 .f32) (main_arg1 : IVec S2x800000 32) (main_arg2 : FVec F S8x128x64 .f32) (main_arg3 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S8x128x64 .f32 := Host.absf main_arg2
  let main_cst_0 : FVec F S_ .f32 := constant S_ .f32 0x7F800000#32
  let main_v5 : FVec F S8x128x64 .f32 := broadcastInDim S8x128x64 ![] bcast_S_S8x128x64 main_cst_0
  let main_v6 : IVec S8x128x64 1 := cmpf .olt main_v4 main_v5
  let main_c_1 : IVec S_ 1 := constantI S_ 1 1#1
  let main_v7 : IVec S_ 1 := (fun x v => Host.reduce IntOp.andi x v reducesTo_S8x128x64_S_d0_1_2 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S8x128x64 : Shape := ⟨3, ![8, 128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x50000x128 : Shape := ⟨3, ![1, 50000, 128]⟩
abbrev S8x50000x128 : Shape := ⟨3, ![8, 50000, 128]⟩
abbrev S1x64 : Shape := ⟨2, ![1, 64]⟩
abbrev S50000x64 : Shape := ⟨2, ![50000, 64]⟩
abbrev S1x5000x128 : Shape := ⟨3, ![1, 5000, 128]⟩
abbrev S1x128x64 : Shape := ⟨3, ![1, 128, 64]⟩
abbrev S5000x64 : Shape := ⟨2, ![5000, 64]⟩
abbrev S5000x128 : Shape := ⟨2, ![5000, 128]⟩
abbrev S128x64 : Shape := ⟨2, ![128, 64]⟩

abbrev nBuf : Space → Nat
  | .hbm => 194
  | .vmem => 8
  | .smem => 0
  | _ => 0

abbrev hbmTy0_0 (i : Nat) : BufTy := match i % 128 with
  | 0 => ⟨S50000x128, .f32⟩
  | 1 => ⟨S2x800000, .i32⟩
  | 2 => ⟨S8x128x64, .f32⟩
  | 3 => ⟨S64, .f32⟩
  | 4 => ⟨S1x800000, .i32⟩
  | 5 => ⟨S800000, .i32⟩
  | 6 => ⟨S1x800000, .i32⟩
  | 7 => ⟨S800000, .i32⟩
  | 8 => ⟨S_, .f32⟩
  | 9 => ⟨S800000, .f32⟩
  | 10 => ⟨S_, .f32⟩
  | 11 => ⟨S50000, .f32⟩
  | 12 => ⟨S800000x1, .i32⟩
  | 13 => ⟨S50000, .f32⟩
  | 14 => ⟨S_, .f32⟩
  | 15 => ⟨S50000, .f32⟩
  | 16 => ⟨S50000, .i1⟩
  | 17 => ⟨S_, .f32⟩
  | 18 => ⟨S50000, .f32⟩
  | 19 => ⟨S50000, .f32⟩
  | 20 => ⟨S50000, .f32⟩
  | 21 => ⟨S_, .f32⟩
  | 22 => ⟨S_, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x128, .f32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S800000x1, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S800000x128, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S_, .f32⟩
  | 78 => ⟨S50000x128, .f32⟩
  | 79 => ⟨S50000x128, .f32⟩
  | 80 => ⟨S50000x128, .f32⟩
  | 81 => ⟨S800000x1, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S800000x128, .f32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S800000x1, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S800000x128, .f32⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S800000x1, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_1 (i : Nat) : BufTy := match i % 128 with
  | 0 => ⟨S800000, .i32⟩
  | 1 => ⟨S800000x1, .i32⟩
  | 2 => ⟨S800000x128, .f32⟩
  | 3 => ⟨S800000x128, .f32⟩
  | 4 => ⟨S800000x128, .f32⟩
  | 5 => ⟨S_, .f32⟩
  | 6 => ⟨S50000x128, .f32⟩
  | 7 => ⟨S800000x1, .i32⟩
  | 8 => ⟨S50000x128, .f32⟩
  | 9 => ⟨S_, .f32⟩
  | 10 => ⟨S50000x128, .f32⟩
  | 11 => ⟨S50000x128, .f32⟩
  | 12 => ⟨S50000x128, .f32⟩
  | 13 => ⟨S800000x1, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S800000x128, .f32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S_, .f32⟩
  | 30 => ⟨S50000x128, .f32⟩
  | 31 => ⟨S50000x128, .f32⟩
  | 32 => ⟨S50000x128, .f32⟩
  | 33 => ⟨S800000x1, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S800000x128, .f32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S_, .f32⟩
  | 50 => ⟨S50000x128, .f32⟩
  | 51 => ⟨S50000x128, .f32⟩
  | 52 => ⟨S50000x128, .f32⟩
  | 53 => ⟨S1x50000x128, .f32⟩
  | 54 => ⟨S1x50000x128, .f32⟩
  | 55 => ⟨S1x50000x128, .f32⟩
  | 56 => ⟨S1x50000x128, .f32⟩
  | 57 => ⟨S1x50000x128, .f32⟩
  | 58 => ⟨S1x50000x128, .f32⟩
  | 59 => ⟨S1x50000x128, .f32⟩
  | 60 => ⟨S1x50000x128, .f32⟩
  | 61 => ⟨S8x50000x128, .f32⟩
  | 62 => ⟨S8x50000x128, .bf16⟩
  | 63 => ⟨S8x128x64, .bf16⟩
  | 64 => ⟨S1x64, .f32⟩
  | 65 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1x5000x128, .bf16⟩
  | .local _ .vmem, ⟨1, _⟩ => ⟨S1x5000x128, .bf16⟩
  | .local _ .vmem, ⟨2, _⟩ => ⟨S1x128x64, .bf16⟩
  | .local _ .vmem, ⟨3, _⟩ => ⟨S1x128x64, .bf16⟩
  | .local _ .vmem, ⟨4, _⟩ => ⟨S1x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_c_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_14 : Ref sig .tc := ⟨.hbm, 82, rfl⟩
abbrev main_v60 : Ref sig .tc := ⟨.hbm, 83, rfl⟩
abbrev main_v61 : Ref sig .tc := ⟨.hbm, 84, rfl⟩
abbrev main_c_15 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_16 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_17 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_18 : Ref sig .tc := ⟨.hbm, 102, rfl⟩
abbrev main_v76 : Ref sig .tc := ⟨.hbm, 103, rfl⟩
abbrev main_v77 : Ref sig .tc := ⟨.hbm, 104, rfl⟩
abbrev main_c_19 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_20 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_21 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_22 : Ref sig .tc := ⟨.hbm, 122, rfl⟩
abbrev main_v92 : Ref sig .tc := ⟨.hbm, 123, rfl⟩
abbrev main_v93 : Ref sig .tc := ⟨.hbm, 124, rfl⟩
abbrev main_c_23 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_24 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_25 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_26 : Ref sig .tc := ⟨.hbm, 142, rfl⟩
abbrev main_v108 : Ref sig .tc := ⟨.hbm, 143, rfl⟩
abbrev main_v109 : Ref sig .tc := ⟨.hbm, 144, rfl⟩
abbrev main_c_27 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_28 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_29 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_c_30 : Ref sig .tc := ⟨.hbm, 162, rfl⟩
abbrev main_v124 : Ref sig .tc := ⟨.hbm, 163, rfl⟩
abbrev main_v125 : Ref sig .tc := ⟨.hbm, 164, rfl⟩
abbrev main_c_31 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_32 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_cst_33 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![10, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x128_S1x50000x128_1_2 : S50000x128.BroadcastsInDim S1x50000x128 (![1, 2] : Fin 2 → Fin S1x50000x128.rank)
  concatenates_S1x50000x128_S1x50000x128_S1x50000x128_S1x50000x128_S1x50000x128_S1x50000x128_S1x50000x128_S1x50000x128_S8x50000x128_d0 : Shape.Concatenates [S1x50000x128, S1x50000x128, S1x50000x128, S1x50000x128, S1x50000x128, S1x50000x128, S1x50000x128, S1x50000x128] S8x50000x128 0
  bitsLt_bf16_f32 : FTy.bits .bf16 < FTy.bits .f32
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x128.size a ≤ S8x50000x128.size a
  hwx0_0 : ∀ i : grid0.Coords, EltTy.bits .bf16 = 32 ∨ (Rect.block (s := S8x50000x128) S1x5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S8x128x64.size a
  hwx0_1 : ∀ i : grid0.Coords, EltTy.bits .bf16 = 32 ∨ (Rect.block (s := S8x128x64) S1x128x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v148) S1x5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v149) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v150) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v151) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S8x128x64 : Shape := ⟨3, ![8, 128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128x64 : Shape := ⟨3, ![1, 128, 64]⟩
abbrev S128x64 : Shape := ⟨2, ![128, 64]⟩
abbrev S50000x64 : Shape := ⟨2, ![50000, 64]⟩
abbrev S1x64 : Shape := ⟨2, ![1, 64]⟩

abbrev nBuf : Space → Nat
  | .hbm => 218
  | .vmem => 0
  | .smem => 0
  | _ => 0

abbrev hbmTy0_0 (i : Nat) : BufTy := match i % 128 with
  | 0 => ⟨S50000x128, .f32⟩
  | 1 => ⟨S2x800000, .i32⟩
  | 2 => ⟨S8x128x64, .f32⟩
  | 3 => ⟨S64, .f32⟩
  | 4 => ⟨S1x800000, .i32⟩
  | 5 => ⟨S800000, .i32⟩
  | 6 => ⟨S1x800000, .i32⟩
  | 7 => ⟨S800000, .i32⟩
  | 8 => ⟨S_, .f32⟩
  | 9 => ⟨S800000, .f32⟩
  | 10 => ⟨S_, .f32⟩
  | 11 => ⟨S50000, .f32⟩
  | 12 => ⟨S800000x1, .i32⟩
  | 13 => ⟨S50000, .f32⟩
  | 14 => ⟨S_, .f32⟩
  | 15 => ⟨S50000, .f32⟩
  | 16 => ⟨S50000, .i1⟩
  | 17 => ⟨S_, .f32⟩
  | 18 => ⟨S50000, .f32⟩
  | 19 => ⟨S50000, .f32⟩
  | 20 => ⟨S50000, .f32⟩
  | 21 => ⟨S_, .f32⟩
  | 22 => ⟨S_, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x128, .f32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S1x128x64, .f32⟩
  | 62 => ⟨S128x64, .f32⟩
  | 63 => ⟨S50000x64, .f32⟩
  | 64 => ⟨S1x128x64, .f32⟩
  | 65 => ⟨S128x64, .f32⟩
  | 66 => ⟨S50000x64, .f32⟩
  | 67 => ⟨S50000x64, .f32⟩
  | 68 => ⟨S800000x1, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S800000x128, .f32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S_, .f32⟩
  | 85 => ⟨S50000x128, .f32⟩
  | 86 => ⟨S50000x128, .f32⟩
  | 87 => ⟨S50000x128, .f32⟩
  | 88 => ⟨S1x128x64, .f32⟩
  | 89 => ⟨S128x64, .f32⟩
  | 90 => ⟨S50000x64, .f32⟩
  | 91 => ⟨S50000x64, .f32⟩
  | 92 => ⟨S800000x1, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .f32⟩
  | 102 => ⟨S800000x128, .f32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S_, .f32⟩
  | 109 => ⟨S50000x128, .f32⟩
  | 110 => ⟨S50000x128, .f32⟩
  | 111 => ⟨S50000x128, .f32⟩
  | 112 => ⟨S1x128x64, .f32⟩
  | 113 => ⟨S128x64, .f32⟩
  | 114 => ⟨S50000x64, .f32⟩
  | 115 => ⟨S50000x64, .f32⟩
  | 116 => ⟨S800000x1, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x128, .f32⟩
  | 126 => ⟨S800000x128, .f32⟩
  | 127 => ⟨S800000x128, .f32⟩
  | _ => ⟨S50000x128, .f32⟩

abbrev hbmTy0_1 (i : Nat) : BufTy := match i % 128 with
  | 0 => ⟨S_, .f32⟩
  | 1 => ⟨S50000x128, .f32⟩
  | 2 => ⟨S800000x1, .i32⟩
  | 3 => ⟨S50000x128, .f32⟩
  | 4 => ⟨S_, .f32⟩
  | 5 => ⟨S50000x128, .f32⟩
  | 6 => ⟨S50000x128, .f32⟩
  | 7 => ⟨S50000x128, .f32⟩
  | 8 => ⟨S1x128x64, .f32⟩
  | 9 => ⟨S128x64, .f32⟩
  | 10 => ⟨S50000x64, .f32⟩
  | 11 => ⟨S50000x64, .f32⟩
  | 12 => ⟨S800000x1, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S800000x128, .f32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S_, .f32⟩
  | 29 => ⟨S50000x128, .f32⟩
  | 30 => ⟨S50000x128, .f32⟩
  | 31 => ⟨S50000x128, .f32⟩
  | 32 => ⟨S1x128x64, .f32⟩
  | 33 => ⟨S128x64, .f32⟩
  | 34 => ⟨S50000x64, .f32⟩
  | 35 => ⟨S50000x64, .f32⟩
  | 36 => ⟨S800000x1, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S800000x128, .f32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S_, .f32⟩
  | 53 => ⟨S50000x128, .f32⟩
  | 54 => ⟨S50000x128, .f32⟩
  | 55 => ⟨S50000x128, .f32⟩
  | 56 => ⟨S1x128x64, .f32⟩
  | 57 => ⟨S128x64, .f32⟩
  | 58 => ⟨S50000x64, .f32⟩
  | 59 => ⟨S50000x64, .f32⟩
  | 60 => ⟨S800000x1, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S800000x128, .f32⟩
  | 71 => ⟨S800000x128, .f32⟩
  | 72 => ⟨S_, .f32⟩
  | 73 => ⟨S50000x128, .f32⟩
  | 74 => ⟨S800000x1, .i32⟩
  | 75 => ⟨S50000x128, .f32⟩
  | 76 => ⟨S_, .f32⟩
  | 77 => ⟨S50000x128, .f32⟩
  | 78 => ⟨S50000x128, .f32⟩
  | 79 => ⟨S50000x128, .f32⟩
  | 80 => ⟨S1x128x64, .f32⟩
  | 81 => ⟨S128x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S_, .f32⟩
  | 88 => ⟨S50000x64, .f32⟩
  | 89 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_10 : Ref sig .tc := ⟨.hbm, 69, rfl⟩
abbrev main_v51 : Ref sig .tc := ⟨.hbm, 70, rfl⟩
abbrev main_v52 : Ref sig .tc := ⟨.hbm, 71, rfl⟩
abbrev main_c_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_14 : Ref sig .tc := ⟨.hbm, 93, rfl⟩
abbrev main_v71 : Ref sig .tc := ⟨.hbm, 94, rfl⟩
abbrev main_v72 : Ref sig .tc := ⟨.hbm, 95, rfl⟩
abbrev main_c_15 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_16 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_17 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_18 : Ref sig .tc := ⟨.hbm, 117, rfl⟩
abbrev main_v91 : Ref sig .tc := ⟨.hbm, 118, rfl⟩
abbrev main_v92 : Ref sig .tc := ⟨.hbm, 119, rfl⟩
abbrev main_c_19 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_20 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_21 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_c_22 : Ref sig .tc := ⟨.hbm, 141, rfl⟩
abbrev main_v111 : Ref sig .tc := ⟨.hbm, 142, rfl⟩
abbrev main_v112 : Ref sig .tc := ⟨.hbm, 143, rfl⟩
abbrev main_c_23 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_24 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_25 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_c_26 : Ref sig .tc := ⟨.hbm, 165, rfl⟩
abbrev main_v131 : Ref sig .tc := ⟨.hbm, 166, rfl⟩
abbrev main_v132 : Ref sig .tc := ⟨.hbm, 167, rfl⟩
abbrev main_c_27 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_28 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_cst_29 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_c_30 : Ref sig .tc := ⟨.hbm, 189, rfl⟩
abbrev main_v151 : Ref sig .tc := ⟨.hbm, 190, rfl⟩
abbrev main_v152 : Ref sig .tc := ⟨.hbm, 191, rfl⟩
abbrev main_c_31 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_cst_32 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_cst_33 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_call1_cst : Ref sig .tc := ⟨.hbm, 215, rfl⟩
abbrev main_call1_v0 : Ref sig .tc := ⟨.hbm, 216, rfl⟩
abbrev main_v173 : Ref sig .tc := ⟨.hbm, 217, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S8x128x64_S1x128x64_0_0_0 : S8x128x64.Slices ![0, 0, 0] S1x128x64
  shapeCasts_S1x128x64_S128x64 : S1x128x64.ShapeCasts S128x64
  slices_S8x128x64_S1x128x64_1_0_0 : S8x128x64.Slices ![1, 0, 0] S1x128x64
  slices_S8x128x64_S1x128x64_2_0_0 : S8x128x64.Slices ![2, 0, 0] S1x128x64
  slices_S8x128x64_S1x128x64_3_0_0 : S8x128x64.Slices ![3, 0, 0] S1x128x64
  slices_S8x128x64_S1x128x64_4_0_0 : S8x128x64.Slices ![4, 0, 0] S1x128x64
  slices_S8x128x64_S1x128x64_5_0_0 : S8x128x64.Slices ![5, 0, 0] S1x128x64
  slices_S8x128x64_S1x128x64_6_0_0 : S8x128x64.Slices ![6, 0, 0] S1x128x64
  slices_S8x128x64_S1x128x64_7_0_0 : S8x128x64.Slices ![7, 0, 0] S1x128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KShared.lean ====
/-
  What the three case runs of the combine kernel's body and the frame proof share: the buffers' contents when the
  region is entered (after the host operations that compute the Chebyshev terms, stack them and cast the operands),
  @main up to the region, each window's block at a grid point, the two branch conditions of the body decided over the
  grid (the accumulator is reset where the order index k is 0, the result is stored where k is 7; the grid is 10 node
  tiles × 8 orders, point t being tile t / 8 and order t % 8), where the result window is idle, and the accumulator
  scratch as a view.
-/
import proofs.«131334_j30210799960803_1_alg».proof.Proof.Gen.Kernel.Launch
import proofs.«131334_j30210799960803_1_alg».proof.Proof.Gen.Kernel.Skeleton
import proofs.«131334_j30210799960803_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- @main up to the region: the stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

set_option maxHeartbeats 4000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data whose array is the region-entry contents and whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the
    block index has not moved), for any proof data whose array is the region-entry contents and whose body leaves the
    block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the
    block index has not moved), for any proof data whose array is the region-entry contents and whose body leaves the
    block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: the argument arrays no window stages (the features, the edge list, the weights, the
    bias: the windows stage arrays the host operations computed from them) end as the region found them, which is as
    launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch conditions -/

/-- The first conditional of the body (reset the accumulator): the order index is 0. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional of the body (add the bias, clamp, store the result): the order index is 7. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the order index is not 7 the result window is idle: the body stores nothing into it, -/
theorem idleAt0_3 : ∀ t : Fin cfg0.N, ¬cond0_1 (grid0.coords t) → cfg0.idle 3 (grid0.coords t) = true := by decide +kernel
/-- and the pipeline does not write its block back. -/
theorem noFlush0_3 : ∀ t : Fin cfg0.N, ¬cond0_1 (grid0.coords t) → (cfg0.win 3).flush t = false := by decide +kernel
/-- Where the order index is 7 the result window is live. -/
theorem liveAt0_3 : ∀ t : Fin cfg0.N, cond0_1 (grid0.coords t) → cfg0.idle 3 (grid0.coords t) = false := by decide +kernel

/-! ## The staging memrefs and the scratch -/

/-- One staging buffer of the result window, through which its contents are stated (the choice does not matter). -/
abbrev VO0_3 : View sig .tc .vmem S5000x64 .f32 := (Memref.whole cc0_stg3_0 : Memref sig .tc .vmem S5000x64 .f32).view
abbrev ms0_0 (t : Fin cfg0.N) : Memref sig .tc .vmem S1x5000x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5000x64 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows and carried between points. -/
abbrev scM0_0 : Memref sig .tc .vmem S5000x64 .f32 := Memref.whole cc0_scratch0
abbrev VS0_0 : View sig .tc .vmem S5000x64 .f32 := scM0_0.view

/-- The class's region invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frm

end
-- ==== Proof.KRunA.lean ====
/-
  The combine kernel's body run whole in one of its three cases: the order index is 0: the accumulator is read (at anything), reset to zero, read again and the product of the tile with the order's weights added to it; the result's buffer and the bias are not touched.
-/
import proofs.«131334_j30210799960803_1_alg».proof.Proof.KShared

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- the order index is 0: the accumulator is read (at anything), reset to zero, read again and the product of the tile with the order's weights added to it; the result's buffer and the bias are not touched. On whole staging memrefs the body runs to its end, the inputs' buffers as they were; the pieces its stores
    leave in the accumulator (and in the result's buffer, where it stores there) are the witness the run finds. -/
noncomputable def kernelRun0_A (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : cond0_0 i) (hc1 : ¬cond0_1 i)
    (x0 : Vec F S1x5000x128 .bf16) (x1 : Vec F S1x128x64 .bf16) (x2 : Vec F S1x64 .f32) :
    Σ' (L3 : List (View.Piece (Elt F) S5000x64 .f32)), { LS0 : List (View.Piece (Elt F) S5000x64 .f32) //
      ∀ (xi3 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__combine_kernel i arg2 harg2 arg3 harg3 arg4 harg4 arg5 harg5 arg6 harg6) K } := by
  refine ⟨[], ?_, fun xi3 E K => ?run⟩
  case run =>
    simp only [cc0__combine_kernel_eq_skeleton]; unfold cc0__combine_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frm

end
-- ==== Proof.KRunB.lean ====
/-
  The combine kernel's body run whole in one of its three cases: the order index is neither 0 nor 7: the accumulator, at what the point before left, is read and the product of the tile with the order's weights added to it; the result's buffer and the bias are not touched.
-/
import proofs.«131334_j30210799960803_1_alg».proof.Proof.KRunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- the order index is neither 0 nor 7: the accumulator, at what the point before left, is read and the product of the tile with the order's weights added to it; the result's buffer and the bias are not touched. On whole staging memrefs the body runs to its end, the inputs' buffers as they were; the pieces its stores
    leave in the accumulator (and in the result's buffer, where it stores there) are the witness the run finds. -/
noncomputable def kernelRun0_B (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : ¬cond0_1 i)
    (x0 : Vec F S1x5000x128 .bf16) (x1 : Vec F S1x128x64 .bf16) (x2 : Vec F S1x64 .f32) (xs0 : Vec F S5000x64 .f32) :
    Σ' (L3 : List (View.Piece (Elt F) S5000x64 .f32)), { LS0 : List (View.Piece (Elt F) S5000x64 .f32) //
      ∀ (xi3 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__combine_kernel i arg2 harg2 arg3 harg3 arg4 harg4 arg5 harg5 arg6 harg6) K } := by
  refine ⟨[], ?_, fun xi3 E K => ?run⟩
  case run =>
    simp only [cc0__combine_kernel_eq_skeleton]; unfold cc0__combine_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Frm

end
-- ==== Proof.KRunC.lean ====
/-
  The combine kernel's body run whole in one of its three cases: the order index is 7: the accumulator, at what the point before left, is read and the last product added to it; then it is read once more, the bias added, the sum clamped below at zero and stored whole into the result's buffer (which is read first, at anything).
-/
import proofs.«131334_j30210799960803_1_alg».proof.Proof.KRunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- the order index is 7: the accumulator, at what the point before left, is read and the last product added to it; then it is read once more, the bias added, the sum clamped below at zero and stored whole into the result's buffer (which is read first, at anything). On whole staging memrefs the body runs to its end, the inputs' buffers as they were; the pieces its stores
    leave in the accumulator (and in the result's buffer, where it stores there) are the witness the run finds. -/
noncomputable def kernelRun0_C (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : cond0_1 i)
    (x0 : Vec F S1x5000x128 .bf16) (x1 : Vec F S1x128x64 .bf16) (x2 : Vec F S1x64 .f32) (xs0 : Vec F S5000x64 .f32) :
    Σ' (L3 : List (View.Piece (Elt F) S5000x64 .f32)), { LS0 : List (View.Piece (Elt F) S5000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__combine_kernel i arg2 harg2 arg3 harg3 arg4 harg4 arg5 harg5 arg6 harg6) K } := by
  refine ⟨?_, ?_, fun E K => ?run⟩
  case run =>
    simp only [cc0__combine_kernel_eq_skeleton]; unfold cc0__combine_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Frm

end
-- ==== Proof.KFrame.lean ====
/-
  The frame of the program: it runs to its end, nothing faults, and its argument arrays end as launched.

  The grid is 10 node tiles × 8 orders, point t being tile t / 8 at order t % 8. The body keeps an accumulator in a
  scratch buffer between points: at order 0 it resets it and adds the first product, at orders 1 … 6 it adds the
  order's product to what the point before left, at order 7 it adds the last product and stores accumulator + bias,
  clamped below at zero, into the result's staging buffer, which the pipeline writes back there and only there. What
  the accumulator and the result's buffer hold after each point is defined by recursion on the point; the region's
  invariant carries the accumulator at that value; the body obligation is the three case runs selected by the order.
-/
import proofs.«131334_j30210799960803_1_alg».proof.Proof.KRunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A stores nothing into the result's buffer (the window is idle there and not written back): a placeholder nothing consults. -/
def out0_A_3 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : cond0_0 i) (hc1 : ¬cond0_1 i)
    (x0 : Vec F S1x5000x128 .bf16) (x1 : Vec F S1x128x64 .bf16) (x2 : Vec F S1x64 .f32) : Vec F S5000x64 .f32 :=
  VO0_3.read (Elt F) (VO0_3.writes (Elt F) VO0_3.junk (kernelRun0_A c i arg2 harg2 arg3 harg3 arg4 harg4 arg5 harg5 arg6 harg6 hc0 hc1 x0 x1 x2).1)

/-- The pieces case A stores into the accumulator cover it (each store is of the whole buffer). -/
theorem scover0_A_0 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : cond0_0 i) (hc1 : ¬cond0_1 i)
    (x0 : Vec F S1x5000x128 .bf16) (x1 : Vec F S1x128x64 .bf16) (x2 : Vec F S1x64 .f32) (y : S5000x64.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S5000x64.size (by sl_kernel_rfl) y

/-- What case A leaves in the accumulator: its pieces read back. -/
def sout0_A_0 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : cond0_0 i) (hc1 : ¬cond0_1 i)
    (x0 : Vec F S1x5000x128 .bf16) (x1 : Vec F S1x128x64 .bf16) (x2 : Vec F S1x64 .f32) : Vec F S5000x64 .f32 :=
  VS0_0.read (Elt F) (VS0_0.writes (Elt F) VS0_0.junk (kernelRun0_A c i arg2 harg2 arg3 harg3 arg4 harg4 arg5 harg5 arg6 harg6 hc0 hc1 x0 x1 x2).2.1)

/-- Case B stores nothing into the result's buffer (the window is idle there and not written back): a placeholder nothing consults. -/
def out0_B_3 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : ¬cond0_1 i)
    (x0 : Vec F S1x5000x128 .bf16) (x1 : Vec F S1x128x64 .bf16) (x2 : Vec F S1x64 .f32) (xs0 : Vec F S5000x64 .f32) : Vec F S5000x64 .f32 :=
  VO0_3.read (Elt F) (VO0_3.writes (Elt F) VO0_3.junk (kernelRun0_B c i arg2 harg2 arg3 harg3 arg4 harg4 arg5 harg5 arg6 harg6 hc0 hc1 x0 x1 x2 xs0).1)

/-- The pieces case B stores into the accumulator cover it (each store is of the whole buffer). -/
theorem scover0_B_0 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : ¬cond0_1 i)
    (x0 : Vec F S1x5000x128 .bf16) (x1 : Vec F S1x128x64 .bf16) (x2 : Vec F S1x64 .f32) (xs0 : Vec F S5000x64 .f32) (y : S5000x64.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S5000x64.size (by sl_kernel_rfl) y

/-- What case B leaves in the accumulator: its pieces read back. -/
def sout0_B_0 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : ¬cond0_1 i)
    (x0 : Vec F S1x5000x128 .bf16) (x1 : Vec F S1x128x64 .bf16) (x2 : Vec F S1x64 .f32) (xs0 : Vec F S5000x64 .f32) : Vec F S5000x64 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- What case C leaves in the result's staging buffer: its one whole store read back. -/
def out0_C_3 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : cond0_1 i)
    (x0 : Vec F S1x5000x128 .bf16) (x1 : Vec F S1x128x64 .bf16) (x2 : Vec F S1x64 .f32) (xs0 : Vec F S5000x64 .f32) : Vec F S5000x64 .f32 :=
  VO0_3.read (Elt F) (VO0_3.writes (Elt F) VO0_3.junk (kernelRun0_C c i arg2 harg2 arg3 harg3 arg4 harg4 arg5 harg5 arg6 harg6 hc0 hc1 x0 x1 x2 xs0).1)

/-- The pieces case C stores into the accumulator cover it (each store is of the whole buffer). -/
theorem scover0_C_0 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : cond0_1 i)
    (x0 : Vec F S1x5000x128 .bf16) (x1 : Vec F S1x128x64 .bf16) (x2 : Vec F S1x64 .f32) (xs0 : Vec F S5000x64 .f32) (y : S5000x64.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S5000x64.size (by sl_kernel_rfl) y

/-- What case C leaves in the accumulator: its pieces read back. -/
def sout0_C_0 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : cond0_1 i)
    (x0 : Vec F S1x5000x128 .bf16) (x1 : Vec F S1x128x64 .bf16) (x2 : Vec F S1x64 .f32) (xs0 : Vec F S5000x64 .f32) : Vec F S5000x64 .f32 :=
  VS0_0.read (Elt F) (VS0_0.writes (Elt F) VS0_0.junk (kernelRun0_C c i arg2 harg2 arg3 harg3 arg4 harg4 arg5 harg5 arg6 harg6 hc0 hc1 x0 x1 x2 xs0).2.1)

/-- Case C's store into the result's buffer covers it. -/
theorem cover0_C_3 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : cond0_1 i)
    (x0 : Vec F S1x5000x128 .bf16) (x1 : Vec F S1x128x64 .bf16) (x2 : Vec F S1x64 .f32) (xs0 : Vec F S5000x64 .f32) (y : S5000x64.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S5000x64.size (by sl_kernel_rfl) y

/-! ## What the result's buffer and the accumulator hold after each point -/

/-- After a point of order 0: (the result's buffer, the accumulator). -/
def ptA (c : Dev nD) (t : Fin cfg0.N) (h0 : t.val % 8 = 0) (h1 : ¬t.val % 8 = 7) : Vec F S5000x64 .f32 × Vec F S5000x64 .f32 :=
  (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t),
   sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t))
/-- After a point of order 1 … 6, the accumulator found at `xs`. -/
def ptB (c : Dev nD) (t : Fin cfg0.N) (h0 : ¬t.val % 8 = 0) (h1 : ¬t.val % 8 = 7) (xs : Vec F S5000x64 .f32) : Vec F S5000x64 .f32 × Vec F S5000x64 .f32 :=
  (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) xs,
   sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) xs)
/-- After a point of order 7, the accumulator found at `xs`. -/
def ptC (c : Dev nD) (t : Fin cfg0.N) (h0 : ¬t.val % 8 = 0) (h1 : t.val % 8 = 7) (xs : Vec F S5000x64 .f32) : Vec F S5000x64 .f32 × Vec F S5000x64 .f32 :=
  (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) xs,
   sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) xs)

/-- The accumulation: what the result's staging buffer and the accumulator hold after the body at position `n`, the
    case selected by the order `n % 8`, the accumulator found at what position `n - 1` left. -/
def outsAt0 (c : Dev nD) : (n : ℕ) → n < cfg0.N → Vec F S5000x64 .f32 × Vec F S5000x64 .f32
  | 0, hn => ptA m c ⟨0, hn⟩ (Nat.zero_mod _) (by show ¬(0 : ℕ) % 8 = 7; decide)
  | n + 1, hn =>
    if h0 : (n + 1) % 8 = 0 then ptA m c ⟨n + 1, hn⟩ h0 (by show ¬(n + 1) % 8 = 7; omega)
    else if h1 : (n + 1) % 8 = 7 then ptC m c ⟨n + 1, hn⟩ h0 h1 (outsAt0 c n (Nat.lt_of_succ_lt hn)).2
    else ptB m c ⟨n + 1, hn⟩ h0 h1 (outsAt0 c n (Nat.lt_of_succ_lt hn)).2

theorem outsAt0_A (c : Dev nD) (t : Fin cfg0.N) (h0 : t.val % 8 = 0) (h1 : ¬t.val % 8 = 7) :
    outsAt0 m c t.val t.isLt = ptA m c t h0 h1 := by
  obtain ⟨n, hn⟩ := t
  cases n with
  | zero => rfl
  | succ n => exact dif_pos h0

theorem outsAt0_B (c : Dev nD) (t : Fin cfg0.N) (h0 : ¬t.val % 8 = 0) (h1 : ¬t.val % 8 = 7) :
    outsAt0 m c t.val t.isLt = ptB m c t h0 h1 (outsAt0 m c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 m c t.val t.isLt = ptC m c t h0 h1 (outsAt0 m c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The region invariant before position `n`: before the first point the class's (the accumulator at anything);
    afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the pipeline on core `c`: the arrays as the region finds them; after the body at point `t` each
    input's buffer at its block and the result's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point: the inputs' buffers hold their blocks; the order decides the case; the invariant hands the
    body the accumulator at what the point before left (at anything at the first point) and takes it back at this
    point's value; the result's buffer is handed back untouched where the window is idle and at the stored value at
    order 7; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 80 := lt_of_lt_of_eq t.isLt (show cfg0.N = 80 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 8 = 0
  · have h1 : ¬t.val % 8 = 7 := by omega
    rw [Dat.leavesExact_idle (dats m 0 c) 3 t (idleAt0_3 t (fun h => h1 ((hcond0_1 t).mp h))) (noFlush0_3 t (fun h => h1 ((hcond0_1 t).mp h)))]
    rw [outsAt0_A m c t h0 h1]
    unfold ptA sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by intro hz; rw [hz] at h0; exact h0 (Nat.zero_mod _)
    by_cases h1 : t.val % 8 = 7
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold ptC out0_C_3 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold ptB sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 80 := N_0; omega)

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to its end, faults nowhere, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frm

end
-- ==== Proof.KIShared.lean ====
/-
  What the three case runs of the combine kernel's body and the frame proof share: the buffers' contents when the
  region is entered (after the host operations that compute the Chebyshev terms, stack them and cast the operands),
  @main up to the region, each window's block at a grid point, the two branch conditions of the body decided over the
  grid (the accumulator is reset where the order index k is 0, the result is stored where k is 7; the grid is 10 node
  tiles × 8 orders, point t being tile t / 8 and order t % 8), where the result window is idle, and the accumulator
  scratch as a view.
-/
import proofs.«131334_j30210799960803_1_alg».proof.Proof.Gen.KernelIdeal.Launch
import proofs.«131334_j30210799960803_1_alg».proof.Proof.Gen.KernelIdeal.Skeleton
import proofs.«131334_j30210799960803_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- @main up to the region: the stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

set_option maxHeartbeats 4000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data whose array is the region-entry contents and whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the
    block index has not moved), for any proof data whose array is the region-entry contents and whose body leaves the
    block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the
    block index has not moved), for any proof data whose array is the region-entry contents and whose body leaves the
    block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: the argument arrays no window stages (the features, the edge list, the weights, the
    bias: the windows stage arrays the host operations computed from them) end as the region found them, which is as
    launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch conditions -/

/-- The first conditional of the body (reset the accumulator): the order index is 0. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional of the body (add the bias, clamp, store the result): the order index is 7. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the order index is not 7 the result window is idle: the body stores nothing into it, -/
theorem idleAt0_3 : ∀ t : Fin cfg0.N, ¬cond0_1 (grid0.coords t) → cfg0.idle 3 (grid0.coords t) = true := by decide +kernel
/-- and the pipeline does not write its block back. -/
theorem noFlush0_3 : ∀ t : Fin cfg0.N, ¬cond0_1 (grid0.coords t) → (cfg0.win 3).flush t = false := by decide +kernel
/-- Where the order index is 7 the result window is live. -/
theorem liveAt0_3 : ∀ t : Fin cfg0.N, cond0_1 (grid0.coords t) → cfg0.idle 3 (grid0.coords t) = false := by decide +kernel

/-! ## The staging memrefs and the scratch -/

/-- One staging buffer of the result window, through which its contents are stated (the choice does not matter). -/
abbrev VO0_3 : View sig .tc .vmem S5000x64 .f32 := (Memref.whole cc0_stg3_0 : Memref sig .tc .vmem S5000x64 .f32).view
abbrev ms0_0 (t : Fin cfg0.N) : Memref sig .tc .vmem S1x5000x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5000x64 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows and carried between points. -/
abbrev scM0_0 : Memref sig .tc .vmem S5000x64 .f32 := Memref.whole cc0_scratch0
abbrev VS0_0 : View sig .tc .vmem S5000x64 .f32 := scM0_0.view

/-- The class's region invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frm

end
-- ==== Proof.KIRunA.lean ====
/-
  The combine kernel's body run whole in one of its three cases: the order index is 0: the accumulator is read (at anything), reset to zero, read again and the product of the tile with the order's weights added to it; the result's buffer and the bias are not touched.
-/
import proofs.«131334_j30210799960803_1_alg».proof.Proof.KIShared

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- the order index is 0: the accumulator is read (at anything), reset to zero, read again and the product of the tile with the order's weights added to it; the result's buffer and the bias are not touched. On whole staging memrefs the body runs to its end, the inputs' buffers as they were; the pieces its stores
    leave in the accumulator (and in the result's buffer, where it stores there) are the witness the run finds. -/
noncomputable def kernelRun0_A (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : cond0_0 i) (hc1 : ¬cond0_1 i)
    (x0 : Vec F S1x5000x128 .bf16) (x1 : Vec F S1x128x64 .bf16) (x2 : Vec F S1x64 .f32) :
    Σ' (L3 : List (View.Piece (Elt F) S5000x64 .f32)), { LS0 : List (View.Piece (Elt F) S5000x64 .f32) //
      ∀ (xi3 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__combine_kernel i arg2 harg2 arg3 harg3 arg4 harg4 arg5 harg5 arg6 harg6) K } := by
  refine ⟨[], ?_, fun xi3 E K => ?run⟩
  case run =>
    simp only [cc0__combine_kernel_eq_skeleton]; unfold cc0__combine_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frm

end
-- ==== Proof.KIRunB.lean ====
/-
  The combine kernel's body run whole in one of its three cases: the order index is neither 0 nor 7: the accumulator, at what the point before left, is read and the product of the tile with the order's weights added to it; the result's buffer and the bias are not touched.
-/
import proofs.«131334_j30210799960803_1_alg».proof.Proof.KIRunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- the order index is neither 0 nor 7: the accumulator, at what the point before left, is read and the product of the tile with the order's weights added to it; the result's buffer and the bias are not touched. On whole staging memrefs the body runs to its end, the inputs' buffers as they were; the pieces its stores
    leave in the accumulator (and in the result's buffer, where it stores there) are the witness the run finds. -/
noncomputable def kernelRun0_B (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : ¬cond0_1 i)
    (x0 : Vec F S1x5000x128 .bf16) (x1 : Vec F S1x128x64 .bf16) (x2 : Vec F S1x64 .f32) (xs0 : Vec F S5000x64 .f32) :
    Σ' (L3 : List (View.Piece (Elt F) S5000x64 .f32)), { LS0 : List (View.Piece (Elt F) S5000x64 .f32) //
      ∀ (xi3 : Vec F S5000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__combine_kernel i arg2 harg2 arg3 harg3 arg4 harg4 arg5 harg5 arg6 harg6) K } := by
  refine ⟨[], ?_, fun xi3 E K => ?run⟩
  case run =>
    simp only [cc0__combine_kernel_eq_skeleton]; unfold cc0__combine_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Frm

end
-- ==== Proof.KIRunC.lean ====
/-
  The combine kernel's body run whole in one of its three cases: the order index is 7: the accumulator, at what the point before left, is read and the last product added to it; then it is read once more, the bias added, the sum clamped below at zero and stored whole into the result's buffer (which is read first, at anything).
-/
import proofs.«131334_j30210799960803_1_alg».proof.Proof.KIRunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- the order index is 7: the accumulator, at what the point before left, is read and the last product added to it; then it is read once more, the bias added, the sum clamped below at zero and stored whole into the result's buffer (which is read first, at anything). On whole staging memrefs the body runs to its end, the inputs' buffers as they were; the pieces its stores
    leave in the accumulator (and in the result's buffer, where it stores there) are the witness the run finds. -/
noncomputable def kernelRun0_C (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : cond0_1 i)
    (x0 : Vec F S1x5000x128 .bf16) (x1 : Vec F S1x128x64 .bf16) (x2 : Vec F S1x64 .f32) (xs0 : Vec F S5000x64 .f32) :
    Σ' (L3 : List (View.Piece (Elt F) S5000x64 .f32)), { LS0 : List (View.Piece (Elt F) S5000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__combine_kernel i arg2 harg2 arg3 harg3 arg4 harg4 arg5 harg5 arg6 harg6) K } := by
  refine ⟨?_, ?_, fun E K => ?run⟩
  case run =>
    simp only [cc0__combine_kernel_eq_skeleton]; unfold cc0__combine_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Frm

end
-- ==== Proof.KIFrame.lean ====
/-
  The frame of the program: it runs to its end, nothing faults, and its argument arrays end as launched.

  The grid is 10 node tiles × 8 orders, point t being tile t / 8 at order t % 8. The body keeps an accumulator in a
  scratch buffer between points: at order 0 it resets it and adds the first product, at orders 1 … 6 it adds the
  order's product to what the point before left, at order 7 it adds the last product and stores accumulator + bias,
  clamped below at zero, into the result's staging buffer, which the pipeline writes back there and only there. What
  the accumulator and the result's buffer hold after each point is defined by recursion on the point; the region's
  invariant carries the accumulator at that value; the body obligation is the three case runs selected by the order.
-/
import proofs.«131334_j30210799960803_1_alg».proof.Proof.KIRunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A stores nothing into the result's buffer (the window is idle there and not written back): a placeholder nothing consults. -/
def out0_A_3 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : cond0_0 i) (hc1 : ¬cond0_1 i)
    (x0 : Vec F S1x5000x128 .bf16) (x1 : Vec F S1x128x64 .bf16) (x2 : Vec F S1x64 .f32) : Vec F S5000x64 .f32 :=
  VO0_3.read (Elt F) (VO0_3.writes (Elt F) VO0_3.junk (kernelRun0_A c i arg2 harg2 arg3 harg3 arg4 harg4 arg5 harg5 arg6 harg6 hc0 hc1 x0 x1 x2).1)

/-- The pieces case A stores into the accumulator cover it (each store is of the whole buffer). -/
theorem scover0_A_0 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : cond0_0 i) (hc1 : ¬cond0_1 i)
    (x0 : Vec F S1x5000x128 .bf16) (x1 : Vec F S1x128x64 .bf16) (x2 : Vec F S1x64 .f32) (y : S5000x64.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S5000x64.size (by sl_kernel_rfl) y

/-- What case A leaves in the accumulator: its pieces read back. -/
def sout0_A_0 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : cond0_0 i) (hc1 : ¬cond0_1 i)
    (x0 : Vec F S1x5000x128 .bf16) (x1 : Vec F S1x128x64 .bf16) (x2 : Vec F S1x64 .f32) : Vec F S5000x64 .f32 :=
  VS0_0.read (Elt F) (VS0_0.writes (Elt F) VS0_0.junk (kernelRun0_A c i arg2 harg2 arg3 harg3 arg4 harg4 arg5 harg5 arg6 harg6 hc0 hc1 x0 x1 x2).2.1)

/-- Case B stores nothing into the result's buffer (the window is idle there and not written back): a placeholder nothing consults. -/
def out0_B_3 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : ¬cond0_1 i)
    (x0 : Vec F S1x5000x128 .bf16) (x1 : Vec F S1x128x64 .bf16) (x2 : Vec F S1x64 .f32) (xs0 : Vec F S5000x64 .f32) : Vec F S5000x64 .f32 :=
  VO0_3.read (Elt F) (VO0_3.writes (Elt F) VO0_3.junk (kernelRun0_B c i arg2 harg2 arg3 harg3 arg4 harg4 arg5 harg5 arg6 harg6 hc0 hc1 x0 x1 x2 xs0).1)

/-- The pieces case B stores into the accumulator cover it (each store is of the whole buffer). -/
theorem scover0_B_0 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : ¬cond0_1 i)
    (x0 : Vec F S1x5000x128 .bf16) (x1 : Vec F S1x128x64 .bf16) (x2 : Vec F S1x64 .f32) (xs0 : Vec F S5000x64 .f32) (y : S5000x64.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S5000x64.size (by sl_kernel_rfl) y

/-- What case B leaves in the accumulator: its pieces read back. -/
def sout0_B_0 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : ¬cond0_1 i)
    (x0 : Vec F S1x5000x128 .bf16) (x1 : Vec F S1x128x64 .bf16) (x2 : Vec F S1x64 .f32) (xs0 : Vec F S5000x64 .f32) : Vec F S5000x64 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- What case C leaves in the result's staging buffer: its one whole store read back. -/
def out0_C_3 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : cond0_1 i)
    (x0 : Vec F S1x5000x128 .bf16) (x1 : Vec F S1x128x64 .bf16) (x2 : Vec F S1x64 .f32) (xs0 : Vec F S5000x64 .f32) : Vec F S5000x64 .f32 :=
  VO0_3.read (Elt F) (VO0_3.writes (Elt F) VO0_3.junk (kernelRun0_C c i arg2 harg2 arg3 harg3 arg4 harg4 arg5 harg5 arg6 harg6 hc0 hc1 x0 x1 x2 xs0).1)

/-- The pieces case C stores into the accumulator cover it (each store is of the whole buffer). -/
theorem scover0_C_0 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : cond0_1 i)
    (x0 : Vec F S1x5000x128 .bf16) (x1 : Vec F S1x128x64 .bf16) (x2 : Vec F S1x64 .f32) (xs0 : Vec F S5000x64 .f32) (y : S5000x64.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S5000x64.size (by sl_kernel_rfl) y

/-- What case C leaves in the accumulator: its pieces read back. -/
def sout0_C_0 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : cond0_1 i)
    (x0 : Vec F S1x5000x128 .bf16) (x1 : Vec F S1x128x64 .bf16) (x2 : Vec F S1x64 .f32) (xs0 : Vec F S5000x64 .f32) : Vec F S5000x64 .f32 :=
  VS0_0.read (Elt F) (VS0_0.writes (Elt F) VS0_0.junk (kernelRun0_C c i arg2 harg2 arg3 harg3 arg4 harg4 arg5 harg5 arg6 harg6 hc0 hc1 x0 x1 x2 xs0).2.1)

/-- Case C's store into the result's buffer covers it. -/
theorem cover0_C_3 (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : cond0_1 i)
    (x0 : Vec F S1x5000x128 .bf16) (x1 : Vec F S1x128x64 .bf16) (x2 : Vec F S1x64 .f32) (xs0 : Vec F S5000x64 .f32) (y : S5000x64.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S5000x64.size (by sl_kernel_rfl) y

/-! ## What the result's buffer and the accumulator hold after each point -/

/-- After a point of order 0: (the result's buffer, the accumulator). -/
def ptA (c : Dev nD) (t : Fin cfg0.N) (h0 : t.val % 8 = 0) (h1 : ¬t.val % 8 = 7) : Vec F S5000x64 .f32 × Vec F S5000x64 .f32 :=
  (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t),
   sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t))
/-- After a point of order 1 … 6, the accumulator found at `xs`. -/
def ptB (c : Dev nD) (t : Fin cfg0.N) (h0 : ¬t.val % 8 = 0) (h1 : ¬t.val % 8 = 7) (xs : Vec F S5000x64 .f32) : Vec F S5000x64 .f32 × Vec F S5000x64 .f32 :=
  (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) xs,
   sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) xs)
/-- After a point of order 7, the accumulator found at `xs`. -/
def ptC (c : Dev nD) (t : Fin cfg0.N) (h0 : ¬t.val % 8 = 0) (h1 : t.val % 8 = 7) (xs : Vec F S5000x64 .f32) : Vec F S5000x64 .f32 × Vec F S5000x64 .f32 :=
  (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) xs,
   sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) xs)

/-- The accumulation: what the result's staging buffer and the accumulator hold after the body at position `n`, the
    case selected by the order `n % 8`, the accumulator found at what position `n - 1` left. -/
def outsAt0 (c : Dev nD) : (n : ℕ) → n < cfg0.N → Vec F S5000x64 .f32 × Vec F S5000x64 .f32
  | 0, hn => ptA m c ⟨0, hn⟩ (Nat.zero_mod _) (by show ¬(0 : ℕ) % 8 = 7; decide)
  | n + 1, hn =>
    if h0 : (n + 1) % 8 = 0 then ptA m c ⟨n + 1, hn⟩ h0 (by show ¬(n + 1) % 8 = 7; omega)
    else if h1 : (n + 1) % 8 = 7 then ptC m c ⟨n + 1, hn⟩ h0 h1 (outsAt0 c n (Nat.lt_of_succ_lt hn)).2
    else ptB m c ⟨n + 1, hn⟩ h0 h1 (outsAt0 c n (Nat.lt_of_succ_lt hn)).2

theorem outsAt0_A (c : Dev nD) (t : Fin cfg0.N) (h0 : t.val % 8 = 0) (h1 : ¬t.val % 8 = 7) :
    outsAt0 m c t.val t.isLt = ptA m c t h0 h1 := by
  obtain ⟨n, hn⟩ := t
  cases n with
  | zero => rfl
  | succ n => exact dif_pos h0

theorem outsAt0_B (c : Dev nD) (t : Fin cfg0.N) (h0 : ¬t.val % 8 = 0) (h1 : ¬t.val % 8 = 7) :
    outsAt0 m c t.val t.isLt = ptB m c t h0 h1 (outsAt0 m c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 m c t.val t.isLt = ptC m c t h0 h1 (outsAt0 m c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The region invariant before position `n`: before the first point the class's (the accumulator at anything);
    afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the pipeline on core `c`: the arrays as the region finds them; after the body at point `t` each
    input's buffer at its block and the result's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point: the inputs' buffers hold their blocks; the order decides the case; the invariant hands the
    body the accumulator at what the point before left (at anything at the first point) and takes it back at this
    point's value; the result's buffer is handed back untouched where the window is idle and at the stored value at
    order 7; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 80 := lt_of_lt_of_eq t.isLt (show cfg0.N = 80 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 8 = 0
  · have h1 : ¬t.val % 8 = 7 := by omega
    rw [Dat.leavesExact_idle (dats m 0 c) 3 t (idleAt0_3 t (fun h => h1 ((hcond0_1 t).mp h))) (noFlush0_3 t (fun h => h1 ((hcond0_1 t).mp h)))]
    rw [outsAt0_A m c t h0 h1]
    unfold ptA sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by intro hz; rw [hz] at h0; exact h0 (Nat.zero_mod _)
    by_cases h1 : t.val % 8 = 7
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold ptC out0_C_3 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold ptB sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 80 := N_0; omega)

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to its end, faults nowhere, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frm

end
-- ==== Proof.LibPlainDot.lean ====
/-
  The plain matrix product `[a, K] · [K, b]` (left operand contracted on its last axis, right operand on its first, no
  batch axes) read at an entry on the extended reals: `(x · y)[p, c] = Σₖ x[p, k] · y[k, c]`, the sum over `Fin K`.
  Stated once for any dimension record of that form, then for the two operations that compute it: a kernel's matrix
  unit product into a zero accumulator, and the host's `dot_general`.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product: contract the left operand's axis 1 with the right operand's axis 0, keep
    the left operand's axis 0 and the right operand's axis 1, no batch axes. -/
structure IsPlain {a K b : ℕ} (D : DotDims ⟨2, ![a, K]⟩ ⟨2, ![K, b]⟩ ⟨2, ![a, b]⟩) : Prop where
  lc : D.lhsContracting = [1]
  rc : D.rhsContracting = [0]
  ln : D.lhsNonContracting = [0]
  rn : D.rhsNonContracting = [1]
  lb : D.lhsBatch = []
  rb : D.rhsBatch = []

/-- The record of a plain product, its lists spelt out. -/
abbrev mk {a K b : ℕ} (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ := ⟨[1], [0], [0], [1], [], [], wf⟩

section
variable {a K b : ℕ} (wf : DotDims.WF ⟨2, ![a, K]⟩ ⟨2, ![K, b]⟩ ⟨2, ![a, b]⟩ [1] [0] [0] [1] [] [])

/-- The left operand's row is the entry's row. -/
theorem lhs_row (i : (⟨2, ![a, b]⟩ : Shape).Idx) (q : (mk wf).contr.Idx) : ((mk wf).lhsIdx i q 0).val = (i 0).val := by
  unfold DotDims.lhsIdx
  rw [dif_neg (show ¬(0 : Fin (Shape.rank ⟨2, ![a, K]⟩)) ∈ (mk wf).lhsBatch from fun h => nomatch h),
    dif_pos (show (0 : Fin (Shape.rank ⟨2, ![a, K]⟩)) ∈ (mk wf).lhsNonContracting from List.Mem.head _)]
  rfl

/-- The left operand's column is the contraction coordinate. -/
theorem lhs_col (i : (⟨2, ![a, b]⟩ : Shape).Idx) (q : (mk wf).contr.Idx) :
    ((mk wf).lhsIdx i q 1).val = (q ⟨0, Nat.one_pos⟩).val :=
  (mk wf).lhsIdx_val_of_single rfl i q

/-- The right operand's row is the contraction coordinate. -/
theorem rhs_row (i : (⟨2, ![a, b]⟩ : Shape).Idx) (q : (mk wf).contr.Idx) :
    ((mk wf).rhsIdx i q 0).val = (q ⟨0, Nat.one_pos⟩).val :=
  (mk wf).rhsIdx_val_of_single rfl i q

/-- The right operand's column is the entry's column. -/
theorem rhs_col (i : (⟨2, ![a, b]⟩ : Shape).Idx) (q : (mk wf).contr.Idx) : ((mk wf).rhsIdx i q 1).val = (i 1).val := by
  unfold DotDims.rhsIdx
  rw [dif_neg (show ¬(1 : Fin (Shape.rank ⟨2, ![K, b]⟩)) ∈ (mk wf).rhsBatch from fun h => nomatch h),
    dif_pos (show (1 : Fin (Shape.rank ⟨2, ![K, b]⟩)) ∈ (mk wf).rhsNonContracting from List.Mem.head _)]
  rfl

/-- The contraction at `(p, c)`, for the spelt-out record. -/
theorem sum_mk (x : (⟨2, ![a, K]⟩ : Shape).Idx → EReal) (y : (⟨2, ![K, b]⟩ : Shape).Idx → EReal) (p : Fin a) (c : Fin b) :
    ∑ k : (mk wf).contr.Idx, x ((mk wf).lhsIdx (ix2 p c) k) * y ((mk wf).rhsIdx (ix2 p c) k)
      = ∑ k : Fin K, x (ix2 p k) * y (ix2 k c) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p c) ((contrEquiv1 (mk wf) K rfl rfl).symm k) = ix2 p k := funext fun ax => Fin.ext (by
    match ax with
    | ⟨0, _⟩ => exact lhs_row wf _ _
    | ⟨1, _⟩ => exact (lhs_col wf _ _).trans hk)
  have er : (mk wf).rhsIdx (ix2 p c) ((contrEquiv1 (mk wf) K rfl rfl).symm k) = ix2 k c := funext fun ax => Fin.ext (by
    match ax with
    | ⟨0, _⟩ => exact (rhs_row wf _ _).trans hk
    | ⟨1, _⟩ => exact rhs_col wf _ _)
  rw [el, er]

end

/-- The contraction of a plain product at the entry `(p, c)` is the sum over the shared axis's coordinate. -/
theorem sum_plain {a K b : ℕ} (D : DotDims ⟨2, ![a, K]⟩ ⟨2, ![K, b]⟩ ⟨2, ![a, b]⟩) (h : IsPlain D)
    (x : (⟨2, ![a, K]⟩ : Shape).Idx → EReal) (y : (⟨2, ![K, b]⟩ : Shape).Idx → EReal) (p : Fin a) (c : Fin b) :
    ∑ k : D.contr.Idx, x (D.lhsIdx (ix2 p c) k) * y (D.rhsIdx (ix2 p c) k) = ∑ k : Fin K, x (ix2 p k) * y (ix2 k c) := by
  obtain ⟨lc, rc, ln, rn, lb, rb, wf⟩ := D
  obtain ⟨h1, h2, h3, h4, h5, h6⟩ := h
  dsimp only at h1 h2 h3 h4 h5 h6
  subst h1 h2 h3 h4 h5 h6
  exact sum_mk wf x y p c

/-- A kernel's matrix product into the zero accumulator, at an entry. -/
theorem matmul_zero_apply {a K b : ℕ} {φ₁ φ₂ : FTy} (D : DotDims ⟨2, ![a, K]⟩ ⟨2, ![K, b]⟩ ⟨2, ![a, b]⟩) (h : IsPlain D)
    (prec : Option ContractPrecision) (x : FVec Ideal ⟨2, ![a, K]⟩ φ₁) (y : FVec Ideal ⟨2, ![K, b]⟩ φ₂) (p : Fin a) (c : Fin b) :
    FloatOps.matmul D prec x y (constant ⟨2, ![a, b]⟩ .f32 0x00000000#32) (ix2 p c) = ∑ k : Fin K, x (ix2 p k) * y (ix2 k c) :=
  (Ideal.matmul_constant_zero_apply D prec x y (ix2 p c)).trans (sum_plain D h x y p c)

/-- The host's `dot_general`, at an entry, whatever its schedule key. -/
theorem dotGeneral_apply {a K b : ℕ} {φ₁ φ₂ : FTy} (D : DotDims ⟨2, ![a, K]⟩ ⟨2, ![K, b]⟩ ⟨2, ![a, b]⟩) (h : IsPlain D)
    (prec : Option ContractPrecision) (sched : HostSchedule) (x : FVec Ideal ⟨2, ![a, K]⟩ φ₁) (y : FVec Ideal ⟨2, ![K, b]⟩ φ₂)
    (p : Fin a) (c : Fin b) :
    FloatOps.dotGeneral D prec sched x y (ix2 p c) = ∑ k : Fin K, x (ix2 p k) * y (ix2 k c) :=
  (Ideal.dotGeneral_apply D prec sched x y (ix2 p c)).trans (sum_plain D h x y p c)

end Cert.LibPlainDot

end
-- ==== Proof.KIPay.lean ====
/-
  The three values the combine kernel's body stores, read at an entry (p, q) of the 5000 × 64 tile, on the extended
  reals: the reset value is 0; the accumulation step is the accumulator's entry plus the entry of the matrix product of
  the tile of the stacked terms with the order's weights, a sum over the 128 input features; the final value is the
  accumulator's entry plus the bias at q, clamped below at zero.
-/
import proofs.«131334_j30210799960803_1_alg».proof.Proof.Gen.KernelIdeal.Skeleton
import proofs.«131334_j30210799960803_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.ValueIdx

/-- The record of the body's matrix product is that of a plain product [5000,128] · [128,64]. -/
theorem dot_plain : Cert.LibPlainDot.IsPlain (a := 5000) (K := 128) (b := 64) dot_S5000x128_S128x64_S5000x64_1_0_0_1_n_n :=
  ⟨rfl, rfl, rfl, rfl, rfl, rfl⟩

/-- The reset value: zero at every entry. -/
theorem pay1_apply (y : S5000x64.Idx) : k0_pay1 (F := Ideal) y = 0 := by
  unfold k0_pay1
  rw [shapeCast_self]
  show Ideal.ofBits .f32 0x00000000#32 = 0
  exact Ideal.ofBits_zero_f32

/-- The accumulation step at (p, q): the accumulator's entry plus the product's entry. -/
theorem pay2_apply (v3 : Vec Ideal S1x5000x128 .bf16) (v5 : Vec Ideal S1x128x64 .bf16) (v7 : Vec Ideal S5000x64 .f32)
    (p : Fin 5000) (q : Fin 64) :
    k0_pay2 v3 v5 v7 (ix2 p q) = v7 (ix2 p q) + ∑ j : Fin 128, v3 (ix3 (0 : Fin 1) p j) * v5 (ix3 (0 : Fin 1) j q) := by
  unfold k0_pay2
  rw [shapeCast_self, addf_apply]
  congr 1
  refine (Cert.LibPlainDot.matmul_zero_apply (a := 5000) (K := 128) (b := 64) _ dot_plain none _ _ p q).trans ?_
  refine Finset.sum_congr rfl fun j _ => ?_
  rw [shapeCast_1ab_ab_apply, shapeCast_1ab_ab_apply]

/-- The final value at (p, q): accumulator plus bias, clamped below at zero. -/
theorem pay3_apply (v16 : Vec Ideal S5000x64 .f32) (v17 : Vec Ideal S1x64 .f32) (p : Fin 5000) (q : Fin 64) :
    k0_pay3 v16 v17 (ix2 p q) = max (v16 (ix2 p q) + v17 (ix2 (0 : Fin 1) q)) 0 := by
  unfold k0_pay3
  rw [maximumf_apply, addf_apply, shapeCast_self, broadcastTo_1b_ab_apply, broadcast_apply]
  congr 1
  exact Ideal.ofBits_zero_f32

end Cert.KernelIdeal.Pay

end
-- ==== Proof.KIBlocks.lean ====
/-
  Each window's block at a grid point, read at an entry, is the staged array at the corresponding global entry.
  Point t is node tile t / 8 at order t % 8: the block of the stacked terms is (order t % 8, rows 5000 · (t / 8) …
  + 4999, all 128 features); the block of the weights is the whole matrix of order t % 8; the bias block is the whole
  one-row bias; the result's block is rows 5000 · (t / 8) … + 4999 of the result.
-/
import proofs.«131334_j30210799960803_1_alg».proof.Proof.KIShared
import Idealize.ShloMosaic.Lib.ValueIdx
import Idealize.ShloMosaic.Lib.Pipeline.Value

set_option maxRecDepth 16384

noncomputable section

namespace Cert.KernelIdeal.Blk

open Cert.KernelIdeal Cert.KernelIdeal.Gen Cert.KernelIdeal.Frm
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The block indices of the four windows at a point, decided over the grid. -/
theorem idx0 : ∀ t : Fin cfg0.N, win0_0.index t 0 = t.val % 8 ∧ win0_0.index t 1 = t.val / 8 ∧ win0_0.index t 2 = 0 :=
  (by decide +kernel : ∀ t : Fin grid0.N, win0_0.index t 0 = t.val % 8 ∧ win0_0.index t 1 = t.val / 8 ∧ win0_0.index t 2 = 0)
theorem idx1 : ∀ t : Fin cfg0.N, win0_1.index t 0 = t.val % 8 ∧ win0_1.index t 1 = 0 ∧ win0_1.index t 2 = 0 :=
  (by decide +kernel : ∀ t : Fin grid0.N, win0_1.index t 0 = t.val % 8 ∧ win0_1.index t 1 = 0 ∧ win0_1.index t 2 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val / 8 ∧ win0_3.index t 1 = 0 :=
  (by decide +kernel : ∀ t : Fin grid0.N, win0_3.index t 0 = t.val / 8 ∧ win0_3.index t 1 = 0)

/-- The stacked terms' block at point t, at (0, p, j): the stacked array at (t % 8, 5000 · (t / 8) + p, j). -/
theorem blk0_apply (c : Dev nD) (t : Fin cfg0.N) (p : Fin 5000) (j : Fin 128) (k : Fin 8) (n : Fin 50000)
    (hk : k.val = t.val % 8) (hn : n.val = 5000 * (t.val / 8) + p.val) :
    (iblk m c 0 t : Vec F S1x5000x128 .bf16) (ix3 (0 : Fin 1) p j) = V m c main_v148 (ix3 k n j) := by
  unfold iblk
  rw [View.read_apply]
  show V m c main_v148 _ = V m c main_v148 _
  congr 1
  funext a
  apply Fin.ext
  match a with
  | ⟨0, _⟩ => show win0_0.index t 0 * 1 + 1 * 0 = k.val; rw [(idx0 t).1]; omega
  | ⟨1, _⟩ => show win0_0.index t 1 * 5000 + 1 * p.val = n.val; rw [(idx0 t).2.1]; omega
  | ⟨2, _⟩ => show win0_0.index t 2 * 128 + 1 * j.val = j.val; rw [(idx0 t).2.2]; omega

/-- The weights' block at point t, at (0, j, q): the weights at (t % 8, j, q). -/
theorem blk1_apply (c : Dev nD) (t : Fin cfg0.N) (j : Fin 128) (q : Fin 64) (k : Fin 8) (hk : k.val = t.val % 8) :
    (iblk m c 1 t : Vec F S1x128x64 .bf16) (ix3 (0 : Fin 1) j q) = V m c main_v149 (ix3 k j q) := by
  unfold iblk
  rw [View.read_apply]
  show V m c main_v149 _ = V m c main_v149 _
  congr 1
  funext a
  apply Fin.ext
  match a with
  | ⟨0, _⟩ => show win0_1.index t 0 * 1 + 1 * 0 = k.val; rw [(idx1 t).1]; omega
  | ⟨1, _⟩ => show win0_1.index t 1 * 128 + 1 * j.val = j.val; rw [(idx1 t).2.1]; omega
  | ⟨2, _⟩ => show win0_1.index t 2 * 64 + 1 * q.val = q.val; rw [(idx1 t).2.2]; omega

/-- The bias block at any point, at (0, q): the one-row bias at (0, q). -/
theorem blk2_apply (c : Dev nD) (t : Fin cfg0.N) (q : Fin 64) :
    (iblk m c 2 t : Vec F S1x64 .f32) (ix2 (0 : Fin 1) q) = V m c main_v150 (ix2 (0 : Fin 1) q) := by
  unfold iblk
  rw [View.read_apply]
  show V m c main_v150 _ = V m c main_v150 _
  congr 1
  funext a
  apply Fin.ext
  match a with
  | ⟨0, _⟩ => show win0_2.index t 0 * 1 + 1 * 0 = 0; rw [(idx2 t).1]
  | ⟨1, _⟩ => show win0_2.index t 1 * 64 + 1 * q.val = q.val; rw [(idx2 t).2]; omega

end Cert.KernelIdeal.Blk

end
-- ==== Proof.Spec.lean ====
/-
  The function both programs compute, index by index, on the extended reals.

  With `T k` the k-th Chebyshev term of the node features (an array [50000, 128]), `W k` the k-th weight matrix
  ([128, 64]) and `b` the bias ([64]), entry (n, f) of the result is
      max ((((((((P 0 + P 1) + P 2) + P 3) + P 4) + P 5) + P 6) + P 7) + b f) 0,
  where `P k = ∑ j, T k n j * W k j f` is entry (n, f) of the matrix product `T k · W k`. The eight products are
  added from the left, in the order k = 0, 1, …, 7: that is the order in which both programs add them, so no
  rearrangement of the sum (and no finiteness of the entries) is needed.
-/
import Idealize.ShloMosaic.PureOps.Ideal
import Idealize.ShloMosaic.Lib.ValueIdx

noncomputable section

namespace Cert.Spec

/-- Entry (n, f) of the matrix product of the k-th term with the k-th weight matrix: a sum over the 128 input features. -/
def prod (T : Fin 8 → Fin 50000 → Fin 128 → EReal) (W : Fin 8 → Fin 128 → Fin 64 → EReal)
    (k : Fin 8) (n : Fin 50000) (f : Fin 64) : EReal :=
  ∑ j : Fin 128, T k n j * W k j f

/-- The eight products added from the left in the order k = 0, …, 7. -/
def acc (T : Fin 8 → Fin 50000 → Fin 128 → EReal) (W : Fin 8 → Fin 128 → Fin 64 → EReal)
    (n : Fin 50000) (f : Fin 64) : EReal :=
  ((((((prod T W 0 n f + prod T W 1 n f) + prod T W 2 n f) + prod T W 3 n f) + prod T W 4 n f)
    + prod T W 5 n f) + prod T W 6 n f) + prod T W 7 n f

/-- Entry (n, f) of the result: the accumulated products plus the bias, clamped below at zero. -/
def comb (T : Fin 8 → Fin 50000 → Fin 128 → EReal) (W : Fin 8 → Fin 128 → Fin 64 → EReal) (b : Fin 64 → EReal)
    (n : Fin 50000) (f : Fin 64) : EReal :=
  max (acc T W n f + b f) 0

end Cert.Spec

end
-- ==== Proof.KIValue.lean ====
/-
  What the idealized kernel's result array holds after the run, on the extended reals.

  Each case of the body leaves in the accumulator the accumulation step's value (over the reset value at order 0, over
  what the point before left at the other orders), and at order 7 leaves in the result's buffer the final value of that;
  by induction on the point the accumulator after point t holds, at (p, q), the products of orders 0 … t % 8 of tile
  t / 8 added from the left onto 0; the pipeline writes the result's block back at the points of order 7, whose blocks
  tile the result; so entry (n, f) of the result array is the specification's value over the staged arrays.
-/
import proofs.«131334_j30210799960803_1_alg».proof.Proof.KIFrame
import proofs.«131334_j30210799960803_1_alg».proof.Proof.KIPay
import proofs.«131334_j30210799960803_1_alg».proof.Proof.KIBlocks
import proofs.«131334_j30210799960803_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.Tactic Idealize.ShloMosaic.ValueIdx
open Idealize.SL Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case leaves, as values -/

section Pieces
variable {F : FTy → Type} [FloatOps F]

/-- Orders 1 … 6: the accumulator found at `xs0` is left at the accumulation step's value over it. -/
theorem sout_B (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : ¬cond0_1 i)
    (x0 : Vec F S1x5000x128 .bf16) (x1 : Vec F S1x128x64 .bf16) (x2 : Vec F S1x64 .f32) (xs0 : Vec F S5000x64 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz2]
  simp only [View.readAt_eq_ld, harg2.read_unread, harg3.read_unread, harg6.read_unread,
    View.ld_unit_zero (S := S1x5000x128) hz3, View.ld_unit_zero (S := S1x128x64) hz3, View.ld_unit_zero (S := S5000x64) hz2]

/-- Order 7, the accumulator: as at orders 1 … 6. -/
theorem sout_C (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : cond0_1 i)
    (x0 : Vec F S1x5000x128 .bf16) (x1 : Vec F S1x128x64 .bf16) (x2 : Vec F S1x64 .f32) (xs0 : Vec F S5000x64 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg6.read_unread,
    View.ld_unit_zero (S := S1x5000x128) hz3, View.ld_unit_zero (S := S1x128x64) hz3, View.ld_unit_zero (S := S5000x64) hz2]

/-- Order 7, the result's buffer: the final value of the accumulator just stored and the bias. -/
theorem out_C (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : ¬cond0_0 i) (hc1 : cond0_1 i)
    (x0 : Vec F S1x5000x128 .bf16) (x1 : Vec F S1x128x64 .bf16) (x2 : Vec F S1x64 .f32) (xs0 : Vec F S5000x64 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread,
    View.readCov_unit_zero (S := S5000x64) _ hz2,
    View.ld_unit_zero (S := S1x5000x128) hz3, View.ld_unit_zero (S := S1x128x64) hz3, View.ld_unit_zero (S := S5000x64) hz2,
    View.ld_unit_zero (S := S1x64) hz2]

/-- Order 0: the accumulator is left at the accumulation step's value over the reset value. -/
theorem sout_A (c : Dev nD) (i : grid0.Coords) (arg2 : Memref sig .tc .vmem S1x5000x128 .bf16) (harg2 : arg2.IsWhole) (arg3 : Memref sig .tc .vmem S1x128x64 .bf16) (harg3 : arg3.IsWhole) (arg4 : Memref sig .tc .vmem S1x64 .f32) (harg4 : arg4.IsWhole) (arg5 : Memref sig .tc .vmem S5000x64 .f32) (harg5 : arg5.IsWhole) (arg6 : Memref sig .tc .vmem S5000x64 .f32) (harg6 : arg6.IsWhole) (hc0 : cond0_0 i) (hc1 : ¬cond0_1 i)
    (x0 : Vec F S1x5000x128 .bf16) (x1 : Vec F S1x128x64 .bf16) (x2 : Vec F S1x64 .f32) :
    sout0_A_0 c i arg2 harg2 arg3 harg3 arg4 harg4 arg5 harg5 arg6 harg6 hc0 hc1 x0 x1 x2 = k0_pay2 x0 x1 k0_pay1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S5000x64) hz2]
  simp only [View.readAt_eq_ld, harg2.read_unread, harg3.read_unread,
    View.readCov_unit_zero (S := S5000x64) _ hz2,
    View.ld_unit_zero (S := S1x5000x128) hz3, View.ld_unit_zero (S := S1x128x64) hz3, View.ld_unit_zero (S := S5000x64) hz2]

end Pieces

/-! ## The accumulation, point by point -/

variable (m : (ℓ : Loc nD τ sig) → Buf (Elt Ideal) ℓ) (ρ : Dev nD → PrngReg)

/-- The three input blocks at a point, as vectors of extended reals. -/
abbrev B0 (c : Dev nD) (t : Fin cfg0.N) : Vec Ideal S1x5000x128 .bf16 := iblk m c 0 t
abbrev B1 (c : Dev nD) (t : Fin cfg0.N) : Vec Ideal S1x128x64 .bf16 := iblk m c 1 t
abbrev B2 (c : Dev nD) (t : Fin cfg0.N) : Vec Ideal S1x64 .f32 := iblk m c 2 t

/-- Entry (p, q) of the product of the terms' block with the weights' block at position `n` (0 past the grid). -/
def P (c : Dev nD) (n : ℕ) (p : Fin 5000) (q : Fin 64) : EReal :=
  if h : n < cfg0.N then
    ∑ j : Fin 128, B0 m c ⟨n, h⟩ (ix3 (0 : Fin 1) p j) * B1 m c ⟨n, h⟩ (ix3 (0 : Fin 1) j q)
  else 0

/-- The accumulator after position `n`, at (p, q): reset to 0 where the order is 0, then the products added on. -/
def chainR (c : Dev nD) : ℕ → Fin 5000 → Fin 64 → EReal
  | 0 => fun p q => 0 + P m c 0 p q
  | n + 1 => fun p q => if (n + 1) % 8 = 0 then 0 + P m c (n + 1) p q else chainR c n p q + P m c (n + 1) p q

theorem chainR_base (c : Dev nD) (n : ℕ) (h : n % 8 = 0) (p : Fin 5000) (q : Fin 64) :
    chainR m c n p q = 0 + P m c n p q := by
  cases n with
  | zero => rfl
  | succ n => show (if (n + 1) % 8 = 0 then _ else _) = _; rw [if_pos h]

theorem chainR_step (c : Dev nD) (n : ℕ) (h : ¬(n + 1) % 8 = 0) (p : Fin 5000) (q : Fin 64) :
    chainR m c (n + 1) p q = chainR m c n p q + P m c (n + 1) p q := by
  show (if (n + 1) % 8 = 0 then _ else _) = _; rw [if_neg h]

/-- The accumulation step at a point, at (p, q): the accumulator's entry plus the point's product entry. -/
theorem step_apply (c : Dev nD) (t : Fin cfg0.N) (xs : Vec Ideal S5000x64 .f32) (p : Fin 5000) (q : Fin 64) :
    k0_pay2 (B0 m c t) (B1 m c t) xs (ix2 p q) = xs (ix2 p q) + P m c t.val p q := by
  rw [Pay.pay2_apply]
  unfold P
  rw [dif_pos t.isLt]

/-- What the accumulator holds after position `n` is the accumulation. -/
theorem acc_eq (c : Dev nD) : ∀ (n : ℕ) (h : n < cfg0.N) (p : Fin 5000) (q : Fin 64),
    (outsAt0 m c n h).2 (ix2 p q) = chainR m c n p q
  | 0, h, p, q => by
    rw [outsAt0_A m c ⟨0, h⟩ (Nat.zero_mod _) (by show ¬(0 : ℕ) % 8 = 7; decide)]
    unfold ptA
    dsimp only
    rw [sout_A]; show k0_pay2 (B0 m c _) (B1 m c _) (k0_pay1 (F := Ideal)) (ix2 p q) = _; rw [step_apply, Pay.pay1_apply]
    rfl
  | n + 1, h, p, q => by
    by_cases h0 : (n + 1) % 8 = 0
    · rw [outsAt0_A m c ⟨n + 1, h⟩ h0 (by dsimp only; omega)]
      unfold ptA
      dsimp only
      rw [sout_A]; show k0_pay2 (B0 m c _) (B1 m c _) (k0_pay1 (F := Ideal)) (ix2 p q) = _; rw [step_apply, Pay.pay1_apply, chainR_base m c (n + 1) h0]
    · by_cases h1 : (n + 1) % 8 = 7
      · rw [outsAt0_C m c ⟨n + 1, h⟩ h0 h1]
        unfold ptC
        dsimp only
        rw [sout_C]; show k0_pay2 (B0 m c _) (B1 m c _) _ (ix2 p q) = _; rw [step_apply, chainR_step m c n h0]
        show (outsAt0 m c n _).2 (ix2 p q) + _ = _
        rw [acc_eq c n]
      · rw [outsAt0_B m c ⟨n + 1, h⟩ h0 h1]
        unfold ptB
        dsimp only
        rw [sout_B]; show k0_pay2 (B0 m c _) (B1 m c _) _ (ix2 p q) = _; rw [step_apply, chainR_step m c n h0]
        show (outsAt0 m c n _).2 (ix2 p q) + _ = _
        rw [acc_eq c n]

/-- What the result's buffer holds after a point of order 7: the accumulation there plus the bias, clamped at zero. -/
theorem out_eq (c : Dev nD) (t : Fin cfg0.N) (h1 : t.val % 8 = 7) (p : Fin 5000) (q : Fin 64) :
    (outsAt0 m c t.val t.isLt).1 (ix2 p q)
      = max (chainR m c t.val p q + B2 m c t (ix2 (0 : Fin 1) q)) 0 := by
  have h0 : ¬t.val % 8 = 0 := by omega
  obtain ⟨n, hn⟩ := t
  cases n with
  | zero => exact absurd (Nat.zero_mod _) h0
  | succ n =>
    rw [outsAt0_C m c ⟨n + 1, hn⟩ h0 h1]
    unfold ptC
    dsimp only
    rw [out_C, Pay.pay3_apply]; show max (k0_pay2 (B0 m c _) (B1 m c _) _ (ix2 p q) + B2 m c _ (ix2 (0 : Fin 1) q)) 0 = _; rw [step_apply, chainR_step m c n h0]
    show max (((outsAt0 m c n _).2 (ix2 p q) + _) + _) 0 = _
    rw [acc_eq m c n]

end Cert.KernelIdeal.Val

end
-- ==== Proof.KIFinal.lean ====
/-
  The idealized kernel's result array after the run: entry (n, f) is the specification's value over the arrays the
  region stages (the stacked terms, the weights, the one-row bias).

  At a point t of order 7 the accumulation is the eight products of tile t / 8 added from the left onto 0; a block's
  product entry is the specification's product over the staged arrays at the global row 5000 · (t / 8) + p; the result's
  block is written back exactly at those points, block t covering rows 5000 · (t / 8) … + 4999, and these ten blocks
  tile the 50000 rows.
-/
import proofs.«131334_j30210799960803_1_alg».proof.Proof.KIValue

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The staged arrays by coordinates: the stacked terms, the weights, the bias. -/
def Tk (c : Dev nD) : Fin 8 → Fin 50000 → Fin 128 → EReal := fun k n j => V m c main_v148 (ix3 k n j)
def Wk (c : Dev nD) : Fin 8 → Fin 128 → Fin 64 → EReal := fun k j q => V m c main_v149 (ix3 k j q)
def bk (c : Dev nD) : Fin 64 → EReal := fun q => V m c main_v150 (ix2 (0 : Fin 1) q)

theorem lt_N {n : ℕ} (h : n < 80) : n < cfg0.N := lt_of_lt_of_eq h (show (80 : ℕ) = cfg0.N from N_0.symm)

/-- A block's product entry is the specification's product at the block's order and the global row. -/
theorem P_eq (c : Dev nD) (n : ℕ) (h : n < 80) (p : Fin 5000) (q : Fin 64) (k : Fin 8) (r : Fin 50000)
    (hk : k.val = n % 8) (hr : r.val = 5000 * (n / 8) + p.val) :
    P m c n p q = Cert.Spec.prod (Tk m c) (Wk m c) k r q := by
  unfold P Cert.Spec.prod Tk Wk
  rw [dif_pos (lt_N h)]
  refine Finset.sum_congr rfl fun j _ => ?_
  unfold B0 B1
  rw [Blk.blk0_apply m c ⟨n, lt_N h⟩ p j k r hk hr, Blk.blk1_apply m c ⟨n, lt_N h⟩ j q k hk]

/-- The accumulation at the order-7 point of tile i: the eight products added from the left onto 0. -/
theorem chain7 (c : Dev nD) (i : ℕ) (p : Fin 5000) (q : Fin 64) :
    chainR m c (8 * i + 7) p q
      = (((((((0 + P m c (8 * i + 0) p q) + P m c (8 * i + 1) p q) + P m c (8 * i + 2) p q) + P m c (8 * i + 3) p q) + P m c (8 * i + 4) p q)
          + P m c (8 * i + 5) p q) + P m c (8 * i + 6) p q) + P m c (8 * i + 7) p q := by
  have e7 : chainR m c (8 * i + 7) p q = chainR m c (8 * i + 6) p q + P m c (8 * i + 7) p q := chainR_step m c (8 * i + 6) (by omega) p q
  have e6 : chainR m c (8 * i + 6) p q = chainR m c (8 * i + 5) p q + P m c (8 * i + 6) p q := chainR_step m c (8 * i + 5) (by omega) p q
  have e5 : chainR m c (8 * i + 5) p q = chainR m c (8 * i + 4) p q + P m c (8 * i + 5) p q := chainR_step m c (8 * i + 4) (by omega) p q
  have e4 : chainR m c (8 * i + 4) p q = chainR m c (8 * i + 3) p q + P m c (8 * i + 4) p q := chainR_step m c (8 * i + 3) (by omega) p q
  have e3 : chainR m c (8 * i + 3) p q = chainR m c (8 * i + 2) p q + P m c (8 * i + 3) p q := chainR_step m c (8 * i + 2) (by omega) p q
  have e2 : chainR m c (8 * i + 2) p q = chainR m c (8 * i + 1) p q + P m c (8 * i + 2) p q := chainR_step m c (8 * i + 1) (by omega) p q
  have e1 : chainR m c (8 * i + 1) p q = chainR m c (8 * i + 0) p q + P m c (8 * i + 1) p q := chainR_step m c (8 * i + 0) (by omega) p q
  have e0 : chainR m c (8 * i + 0) p q = 0 + P m c (8 * i + 0) p q := chainR_base m c (8 * i + 0) (by omega) p q
  rw [e7, e6, e5, e4, e3, e2, e1, e0]

/-- At a point of order 7 the accumulation is the specification's accumulated products at the global row. -/
theorem acc7 (c : Dev nD) (t : Fin cfg0.N) (h7 : t.val % 8 = 7) (p : Fin 5000) (q : Fin 64) (r : Fin 50000)
    (hr : r.val = 5000 * (t.val / 8) + p.val) :
    chainR m c t.val p q = Cert.Spec.acc (Tk m c) (Wk m c) r q := by
  have hN : t.val < 80 := lt_of_lt_of_eq t.isLt (show cfg0.N = 80 from N_0)
  obtain ⟨i, hi⟩ : ∃ i, t.val = 8 * i + 7 := ⟨t.val / 8, by omega⟩
  rw [hi] at hr hN
  rw [hi, chain7, zero_add]
  unfold Cert.Spec.acc
  rw [P_eq m c (8 * i + 0) (by omega) p q 0 r (by show 0 = _; omega) (by omega),
    P_eq m c (8 * i + 1) (by omega) p q 1 r (by show 1 = _; omega) (by omega),
    P_eq m c (8 * i + 2) (by omega) p q 2 r (by show 2 = _; omega) (by omega),
    P_eq m c (8 * i + 3) (by omega) p q 3 r (by show 3 = _; omega) (by omega),
    P_eq m c (8 * i + 4) (by omega) p q 4 r (by show 4 = _; omega) (by omega),
    P_eq m c (8 * i + 5) (by omega) p q 5 r (by show 5 = _; omega) (by omega),
    P_eq m c (8 * i + 6) (by omega) p q 6 r (by show 6 = _; omega) (by omega),
    P_eq m c (8 * i + 7) (by omega) p q 7 r (by show 7 = _; omega) (by omega)]

/-- The result: entry (n, f) is the specification's value over the staged arrays. -/
def G (c : Dev nD) : Buf (Elt Ideal) ((c : Thread nD τ).loc main_v151) :=
  fun idx => Cert.Spec.comb (Tk m c) (Wk m c) (bk m c) (idx 0) (idx 1)

/-- The write-back at a point of order 7 writes the result's block of that function. -/
theorem flushed_eq (c : Dev nD) (t : Fin cfg0.N) (hf : (cfg0.win 3).flush t = true) :
    (dats m 0 c).flushed 3 t = ((cfg0.win 3).blk t).view.read (Elt Ideal) (G m c) := by
  have h7 : t.val % 8 = 7 := (flush0_3 t).mp hf
  have hN : t.val < 80 := lt_of_lt_of_eq t.isLt (show cfg0.N = 80 from N_0)
  show (cfg0.win 3).cut (grid0.coords t) ((dats m 0 c).after 3 t) = _
  rw [after0_3]
  funext y
  obtain ⟨p, q, rfl⟩ : ∃ (p : Fin 5000) (q : Fin 64), y = ix2 p q := ⟨y 0, y 1, eq_ix2 y⟩
  rw [View.read_apply]
  have he : ((cfg0.win 3).blk t).view.emb (ix2 p q) = ix2 (⟨5000 * (t.val / 8) + p.val, by omega⟩ : Fin 50000) q :=
    funext fun a => Fin.ext (by
      match a with
      | ⟨0, _⟩ => show win0_3.index t 0 * 5000 + 1 * p.val = 5000 * (t.val / 8) + p.val; rw [(Blk.idx3 t).1]; omega
      | ⟨1, _⟩ => show win0_3.index t 1 * 64 + 1 * q.val = q.val; rw [(Blk.idx3 t).2]; omega)
  rw [he]
  show (outsAt0 m c t.val t.isLt).1 (ix2 p q) = Cert.Spec.comb (Tk m c) (Wk m c) (bk m c) ⟨5000 * (t.val / 8) + p.val, _⟩ q
  rw [out_eq m c t h7, acc7 m c t h7 p q ⟨5000 * (t.val / 8) + p.val, by omega⟩ rfl]
  unfold B2
  rw [Blk.blk2_apply]
  rfl

/-- The extents of the result's block at every point. -/
theorem xsize3 : ∀ t : Fin cfg0.N, win0_3.xsize (grid0.coords t) 0 = 5000 ∧ win0_3.xsize (grid0.coords t) 1 = 64 :=
  (by decide +kernel : ∀ t : Fin grid0.N, win0_3.xsize (grid0.coords t) 0 = 5000 ∧ win0_3.xsize (grid0.coords t) 1 = 64)

/-- Every entry of the result lies in the block of the order-7 point of its tile. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 50000 := (i 0).isLt
  have h1 : (i 1 : Nat) < 64 := (i 1).isLt
  have ht : 8 * ((i 0 : Nat) / 5000) + 7 < cfg0.N := lt_N (by omega)
  refine ⟨⟨8 * ((i 0 : Nat) / 5000) + 7, ht⟩, (flush0_3 _).mpr (by show (8 * ((i 0 : Nat) / 5000) + 7) % 8 = 7; omega), ?_⟩
  show i ∈ ((View.whole main_v151).slice (win0_3.rect ⟨8 * ((i 0 : Nat) / 5000) + 7, ht⟩)).set
  rw [View.set_slice_whole, Rect.mem_set_unit]
  intro a
  match a with
  | ⟨0, _⟩ =>
    show win0_3.index ⟨8 * ((i 0 : Nat) / 5000) + 7, ht⟩ 0 * win0_3.size 0 ≤ (i 0 : Nat)
      ∧ (i 0 : Nat) < win0_3.index ⟨8 * ((i 0 : Nat) / 5000) + 7, ht⟩ 0 * win0_3.size 0 + win0_3.xsize (grid0.coords ⟨8 * ((i 0 : Nat) / 5000) + 7, ht⟩) 0
    rw [(Blk.idx3 _).1, (xsize3 _).1, show win0_3.size 0 = 5000 from rfl]
    show (8 * ((i 0 : Nat) / 5000) + 7) / 8 * 5000 ≤ (i 0 : Nat) ∧ (i 0 : Nat) < (8 * ((i 0 : Nat) / 5000) + 7) / 8 * 5000 + 5000
    omega
  | ⟨1, _⟩ =>
    show win0_3.index ⟨8 * ((i 0 : Nat) / 5000) + 7, ht⟩ 1 * win0_3.size 1 ≤ (i 1 : Nat)
      ∧ (i 1 : Nat) < win0_3.index ⟨8 * ((i 0 : Nat) / 5000) + 7, ht⟩ 1 * win0_3.size 1 + win0_3.xsize (grid0.coords ⟨8 * ((i 0 : Nat) / 5000) + 7, ht⟩) 1
    rw [(Blk.idx3 _).2, (xsize3 _).2]
    omega

/-- So the result array ends holding that function. -/
theorem final (c : Dev nD) : (dats m 0 c).arrAt 3 cfg0.N = G m c :=
  (dats m 0 c).arrAt_eq_of_cover 3 (G m c) (flushed_eq m c) (cover c)

/-- The run, read: the result array at the specification over the staged arrays, the arguments unchanged. -/
theorem run : θ_run defs (onTc (τ := τ) (main (F := Ideal))) ⟨m, fun _ => 0, ρ⟩ fun r => ∀ c : Dev nD,
      r.2.mem ((c.tc : Thread nD τ).loc main_v151) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Val

end
-- ==== Proof.RefTerms.lean ====
/-
  The eight Chebyshev terms T_0, …, T_7 of the node features, as the reference program computes them: T_0 is the
  feature array itself, T_1 the normalised-adjacency propagation of it, and T_k = 2 · prop (T_(k-1)) - T_(k-2); each is the
  value of one operation of the reference program, a function of the feature array and the edge list.
-/
import proofs.«131334_j30210799960803_1_alg».proof.Proof.RefReadP

noncomputable section

namespace Cert.RefTerms

open Idealize.ShloMosaic Cert.ReferenceIdeal Cert.ReferenceIdeal.Read

/-- The k-th Chebyshev term as the reference program's operations compute it from the features `x` and the edges `e`. -/
def term (k : Fin 8) (x : (⟨S50000x128, .f32⟩ : BufTy).Contents (Elt Ideal)) (e : (⟨S2x800000, .i32⟩ : BufTy).Contents (Elt Ideal)) :
    (⟨S50000x128, .f32⟩ : BufTy).Contents (Elt Ideal) :=
  match k with
  | 0 => x
  | 1 => val_main_v42 (F := Ideal) x e
  | 2 => val_main_v65 (F := Ideal) x e
  | 3 => val_main_v85 (F := Ideal) x e
  | 4 => val_main_v105 (F := Ideal) x e
  | 5 => val_main_v125 (F := Ideal) x e
  | 6 => val_main_v145 (F := Ideal) x e
  | 7 => val_main_v165 (F := Ideal) x e

end Cert.RefTerms

end
-- ==== Proof.RefSide.lean ====
/-
  The reference program read one operation at a time: its result as a function of the argument arrays.

  The reference adds the eight matrix products T_k · W_k one after the other, in the order k = 0, …, 7, then adds the
  bias along the rows and clamps below at zero. Entry (n, f) of the k-th product is the sum over the 128 input
  features j of T_k[n, j] · W[k, j, f]: the k-th weight matrix is the k-th slab of the weight array with its leading
  axis of extent one dropped, and dropping that axis does not move an entry (row-major position j · 64 + f both before
  and after). The Chebyshev terms T_k themselves are left as they are computed; nothing here looks inside them.
-/
import proofs.«131334_j30210799960803_1_alg».proof.Proof.RefReadP
import proofs.«131334_j30210799960803_1_alg».proof.Proof.Spec
import proofs.«131334_j30210799960803_1_alg».proof.Proof.RefTerms
import Idealize.ShloMosaic.Lib.ValueIdx
import Idealize.ShloMosaic.Lib.Pipeline.Value
import Idealize.ShloMosaic.PureOps.Ideal.Laws

noncomputable section

namespace Cert.ReferenceIdeal.RefSide

open Idealize.ShloMosaic Idealize.ShloMosaic.TcCoe Idealize.SL.Sem Idealize.ShloMosaic.ValueIdx
open Cert.ReferenceIdeal Cert.ReferenceIdeal.Read

/-! ## Where each product reads its operands

For the output entry (n, f) and the summation index j, the left operand of every product is read at (n, j) and the
right operand, a [128, 64] matrix, at (j, f). -/

/-- The left operand of product 0 at output entry (n, f) and summation index j is read at (n, j). -/
theorem lidx0 (n : Fin 50000) (f : Fin 64) (j : Fin 128) : lidx_main_v45 (ix2 n f) j = ix2 n j :=
  funext fun a => match a with | ⟨0, _⟩ => rfl | ⟨1, _⟩ => rfl

/-- The left operand of product 1 at output entry (n, f) and summation index j is read at (n, j). -/
theorem lidx1 (n : Fin 50000) (f : Fin 64) (j : Fin 128) : lidx_main_v48 (ix2 n f) j = ix2 n j :=
  funext fun a => match a with | ⟨0, _⟩ => rfl | ⟨1, _⟩ => rfl

/-- The left operand of product 2 at output entry (n, f) and summation index j is read at (n, j). -/
theorem lidx2 (n : Fin 50000) (f : Fin 64) (j : Fin 128) : lidx_main_v68 (ix2 n f) j = ix2 n j :=
  funext fun a => match a with | ⟨0, _⟩ => rfl | ⟨1, _⟩ => rfl

/-- The left operand of product 3 at output entry (n, f) and summation index j is read at (n, j). -/
theorem lidx3 (n : Fin 50000) (f : Fin 64) (j : Fin 128) : lidx_main_v88 (ix2 n f) j = ix2 n j :=
  funext fun a => match a with | ⟨0, _⟩ => rfl | ⟨1, _⟩ => rfl

/-- The left operand of product 4 at output entry (n, f) and summation index j is read at (n, j). -/
theorem lidx4 (n : Fin 50000) (f : Fin 64) (j : Fin 128) : lidx_main_v108 (ix2 n f) j = ix2 n j :=
  funext fun a => match a with | ⟨0, _⟩ => rfl | ⟨1, _⟩ => rfl

/-- The left operand of product 5 at output entry (n, f) and summation index j is read at (n, j). -/
theorem lidx5 (n : Fin 50000) (f : Fin 64) (j : Fin 128) : lidx_main_v128 (ix2 n f) j = ix2 n j :=
  funext fun a => match a with | ⟨0, _⟩ => rfl | ⟨1, _⟩ => rfl

/-- The left operand of product 6 at output entry (n, f) and summation index j is read at (n, j). -/
theorem lidx6 (n : Fin 50000) (f : Fin 64) (j : Fin 128) : lidx_main_v148 (ix2 n f) j = ix2 n j :=
  funext fun a => match a with | ⟨0, _⟩ => rfl | ⟨1, _⟩ => rfl

/-- The left operand of product 7 at output entry (n, f) and summation index j is read at (n, j). -/
theorem lidx7 (n : Fin 50000) (f : Fin 64) (j : Fin 128) : lidx_main_v168 (ix2 n f) j = ix2 n j :=
  funext fun a => match a with | ⟨0, _⟩ => rfl | ⟨1, _⟩ => rfl

/-! ## The weight matrices

The k-th right operand is the k-th slab of the weight array: its entry (j, f) is entry (k, j, f) of the array. The
reshape from [1, 128, 64] to [128, 64] keeps the row-major position j · 64 + f, whose quotient by 64 is j and whose
remainder is f. -/

/-- Entry (j, f) of weight matrix 0, as product 0 reads it, is entry (0, j, f) of the weight array. -/
theorem weight0 (x2 : (⟨S8x128x64, .f32⟩ : BufTy).Contents (Elt Ideal)) (n : Fin 50000) (f : Fin 64) (j : Fin 128) :
    val_main_v44 (F := Ideal) x2 (ridx_main_v45 (ix2 n f) j) = x2 (ix3 (0 : Fin 8) j f) := by
  rw [val_main_v44_apply, val_main_v43_apply]
  refine congrArg x2 (funext fun a => Fin.ext ?_)
  have hj : j.val < 128 := j.isLt
  have hf : f.val < 64 := f.isLt
  match a with
  | ⟨0, _⟩ => rfl
  | ⟨1, _⟩ => show (j.val * 64 + f.val) / 64 % 128 = j.val; omega
  | ⟨2, _⟩ => show (j.val * 64 + f.val) % 64 = f.val; omega

/-- Entry (j, f) of weight matrix 1, as product 1 reads it, is entry (1, j, f) of the weight array. -/
theorem weight1 (x2 : (⟨S8x128x64, .f32⟩ : BufTy).Contents (Elt Ideal)) (n : Fin 50000) (f : Fin 64) (j : Fin 128) :
    val_main_v47 (F := Ideal) x2 (ridx_main_v48 (ix2 n f) j) = x2 (ix3 (1 : Fin 8) j f) := by
  rw [val_main_v47_apply, val_main_v46_apply]
  refine congrArg x2 (funext fun a => Fin.ext ?_)
  have hj : j.val < 128 := j.isLt
  have hf : f.val < 64 := f.isLt
  match a with
  | ⟨0, _⟩ => rfl
  | ⟨1, _⟩ => show (j.val * 64 + f.val) / 64 % 128 = j.val; omega
  | ⟨2, _⟩ => show (j.val * 64 + f.val) % 64 = f.val; omega

/-- Entry (j, f) of weight matrix 2, as product 2 reads it, is entry (2, j, f) of the weight array. -/
theorem weight2 (x2 : (⟨S8x128x64, .f32⟩ : BufTy).Contents (Elt Ideal)) (n : Fin 50000) (f : Fin 64) (j : Fin 128) :
    val_main_v67 (F := Ideal) x2 (ridx_main_v68 (ix2 n f) j) = x2 (ix3 (2 : Fin 8) j f) := by
  rw [val_main_v67_apply, val_main_v66_apply]
  refine congrArg x2 (funext fun a => Fin.ext ?_)
  have hj : j.val < 128 := j.isLt
  have hf : f.val < 64 := f.isLt
  match a with
  | ⟨0, _⟩ => rfl
  | ⟨1, _⟩ => show (j.val * 64 + f.val) / 64 % 128 = j.val; omega
  | ⟨2, _⟩ => show (j.val * 64 + f.val) % 64 = f.val; omega

/-- Entry (j, f) of weight matrix 3, as product 3 reads it, is entry (3, j, f) of the weight array. -/
theorem weight3 (x2 : (⟨S8x128x64, .f32⟩ : BufTy).Contents (Elt Ideal)) (n : Fin 50000) (f : Fin 64) (j : Fin 128) :
    val_main_v87 (F := Ideal) x2 (ridx_main_v88 (ix2 n f) j) = x2 (ix3 (3 : Fin 8) j f) := by
  rw [val_main_v87_apply, val_main_v86_apply]
  refine congrArg x2 (funext fun a => Fin.ext ?_)
  have hj : j.val < 128 := j.isLt
  have hf : f.val < 64 := f.isLt
  match a with
  | ⟨0, _⟩ => rfl
  | ⟨1, _⟩ => show (j.val * 64 + f.val) / 64 % 128 = j.val; omega
  | ⟨2, _⟩ => show (j.val * 64 + f.val) % 64 = f.val; omega

/-- Entry (j, f) of weight matrix 4, as product 4 reads it, is entry (4, j, f) of the weight array. -/
theorem weight4 (x2 : (⟨S8x128x64, .f32⟩ : BufTy).Contents (Elt Ideal)) (n : Fin 50000) (f : Fin 64) (j : Fin 128) :
    val_main_v107 (F := Ideal) x2 (ridx_main_v108 (ix2 n f) j) = x2 (ix3 (4 : Fin 8) j f) := by
  rw [val_main_v107_apply, val_main_v106_apply]
  refine congrArg x2 (funext fun a => Fin.ext ?_)
  have hj : j.val < 128 := j.isLt
  have hf : f.val < 64 := f.isLt
  match a with
  | ⟨0, _⟩ => rfl
  | ⟨1, _⟩ => show (j.val * 64 + f.val) / 64 % 128 = j.val; omega
  | ⟨2, _⟩ => show (j.val * 64 + f.val) % 64 = f.val; omega

/-- Entry (j, f) of weight matrix 5, as product 5 reads it, is entry (5, j, f) of the weight array. -/
theorem weight5 (x2 : (⟨S8x128x64, .f32⟩ : BufTy).Contents (Elt Ideal)) (n : Fin 50000) (f : Fin 64) (j : Fin 128) :
    val_main_v127 (F := Ideal) x2 (ridx_main_v128 (ix2 n f) j) = x2 (ix3 (5 : Fin 8) j f) := by
  rw [val_main_v127_apply, val_main_v126_apply]
  refine congrArg x2 (funext fun a => Fin.ext ?_)
  have hj : j.val < 128 := j.isLt
  have hf : f.val < 64 := f.isLt
  match a with
  | ⟨0, _⟩ => rfl
  | ⟨1, _⟩ => show (j.val * 64 + f.val) / 64 % 128 = j.val; omega
  | ⟨2, _⟩ => show (j.val * 64 + f.val) % 64 = f.val; omega

/-- Entry (j, f) of weight matrix 6, as product 6 reads it, is entry (6, j, f) of the weight array. -/
theorem weight6 (x2 : (⟨S8x128x64, .f32⟩ : BufTy).Contents (Elt Ideal)) (n : Fin 50000) (f : Fin 64) (j : Fin 128) :
    val_main_v147 (F := Ideal) x2 (ridx_main_v148 (ix2 n f) j) = x2 (ix3 (6 : Fin 8) j f) := by
  rw [val_main_v147_apply, val_main_v146_apply]
  refine congrArg x2 (funext fun a => Fin.ext ?_)
  have hj : j.val < 128 := j.isLt
  have hf : f.val < 64 := f.isLt
  match a with
  | ⟨0, _⟩ => rfl
  | ⟨1, _⟩ => show (j.val * 64 + f.val) / 64 % 128 = j.val; omega
  | ⟨2, _⟩ => show (j.val * 64 + f.val) % 64 = f.val; omega

/-- Entry (j, f) of weight matrix 7, as product 7 reads it, is entry (7, j, f) of the weight array. -/
theorem weight7 (x2 : (⟨S8x128x64, .f32⟩ : BufTy).Contents (Elt Ideal)) (n : Fin 50000) (f : Fin 64) (j : Fin 128) :
    val_main_v167 (F := Ideal) x2 (ridx_main_v168 (ix2 n f) j) = x2 (ix3 (7 : Fin 8) j f) := by
  rw [val_main_v167_apply, val_main_v166_apply]
  refine congrArg x2 (funext fun a => Fin.ext ?_)
  have hj : j.val < 128 := j.isLt
  have hf : f.val < 64 := f.isLt
  match a with
  | ⟨0, _⟩ => rfl
  | ⟨1, _⟩ => show (j.val * 64 + f.val) / 64 % 128 = j.val; omega
  | ⟨2, _⟩ => show (j.val * 64 + f.val) % 64 = f.val; omega

/-! ## The bias

The bias is first given a leading axis of extent one and then repeated along the 50000 rows: entry (n, f) of the
result is entry f of the bias. -/

/-- Entry (n, f) of the bias repeated along the rows is entry f of the bias. -/
theorem bias (x3 : (⟨S64, .f32⟩ : BufTy).Contents (Elt Ideal)) (n : Fin 50000) (f : Fin 64) :
    val_main_v171 (F := Ideal) x3 (ix2 n f) = x3 (ix1 f) := by
  rw [val_main_v171_apply, val_main_v170_apply]
  exact congrArg x3 (funext fun a => match a with | ⟨0, _⟩ => rfl)

/-- The array the clamp compares with is zero everywhere. -/
theorem zeros (i : S50000x64.Idx) : val_main_call1_v0 (F := Ideal) i = 0 := by
  rw [val_main_call1_v0_apply, val_main_call1_cst_apply]
  exact Ideal.ofBits_zero_f32

/-! ## The eight products -/

/-- Entry (n, f) of product 0 is the sum over j of T_0[n, j] · W[0, j, f]. -/
theorem product0 (x0 : (⟨S50000x128, .f32⟩ : BufTy).Contents (Elt Ideal)) (x1 : (⟨S2x800000, .i32⟩ : BufTy).Contents (Elt Ideal)) (x2 : (⟨S8x128x64, .f32⟩ : BufTy).Contents (Elt Ideal)) (n : Fin 50000) (f : Fin 64) :
    val_main_v45 (F := Ideal) x0 x2 (ix2 n f)
      = Cert.Spec.prod (fun k p j => Cert.RefTerms.term k x0 x1 (ix2 p j)) (fun k j q => x2 (ix3 k j q)) 0 n f := by
  rw [val_main_v45_apply]
  unfold Cert.Spec.prod
  refine Finset.sum_congr rfl fun j _ => ?_
  rw [lidx0, weight0]
  rfl

/-- Entry (n, f) of product 1 is the sum over j of T_1[n, j] · W[1, j, f]. -/
theorem product1 (x0 : (⟨S50000x128, .f32⟩ : BufTy).Contents (Elt Ideal)) (x1 : (⟨S2x800000, .i32⟩ : BufTy).Contents (Elt Ideal)) (x2 : (⟨S8x128x64, .f32⟩ : BufTy).Contents (Elt Ideal)) (n : Fin 50000) (f : Fin 64) :
    val_main_v48 (F := Ideal) x0 x1 x2 (ix2 n f)
      = Cert.Spec.prod (fun k p j => Cert.RefTerms.term k x0 x1 (ix2 p j)) (fun k j q => x2 (ix3 k j q)) 1 n f := by
  rw [val_main_v48_apply]
  unfold Cert.Spec.prod
  refine Finset.sum_congr rfl fun j _ => ?_
  rw [lidx1, weight1]
  rfl

/-- Entry (n, f) of product 2 is the sum over j of T_2[n, j] · W[2, j, f]. -/
theorem product2 (x0 : (⟨S50000x128, .f32⟩ : BufTy).Contents (Elt Ideal)) (x1 : (⟨S2x800000, .i32⟩ : BufTy).Contents (Elt Ideal)) (x2 : (⟨S8x128x64, .f32⟩ : BufTy).Contents (Elt Ideal)) (n : Fin 50000) (f : Fin 64) :
    val_main_v68 (F := Ideal) x0 x1 x2 (ix2 n f)
      = Cert.Spec.prod (fun k p j => Cert.RefTerms.term k x0 x1 (ix2 p j)) (fun k j q => x2 (ix3 k j q)) 2 n f := by
  rw [val_main_v68_apply]
  unfold Cert.Spec.prod
  refine Finset.sum_congr rfl fun j _ => ?_
  rw [lidx2, weight2]
  rfl

/-- Entry (n, f) of product 3 is the sum over j of T_3[n, j] · W[3, j, f]. -/
theorem product3 (x0 : (⟨S50000x128, .f32⟩ : BufTy).Contents (Elt Ideal)) (x1 : (⟨S2x800000, .i32⟩ : BufTy).Contents (Elt Ideal)) (x2 : (⟨S8x128x64, .f32⟩ : BufTy).Contents (Elt Ideal)) (n : Fin 50000) (f : Fin 64) :
    val_main_v88 (F := Ideal) x0 x1 x2 (ix2 n f)
      = Cert.Spec.prod (fun k p j => Cert.RefTerms.term k x0 x1 (ix2 p j)) (fun k j q => x2 (ix3 k j q)) 3 n f := by
  rw [val_main_v88_apply]
  unfold Cert.Spec.prod
  refine Finset.sum_congr rfl fun j _ => ?_
  rw [lidx3, weight3]
  rfl

/-- Entry (n, f) of product 4 is the sum over j of T_4[n, j] · W[4, j, f]. -/
theorem product4 (x0 : (⟨S50000x128, .f32⟩ : BufTy).Contents (Elt Ideal)) (x1 : (⟨S2x800000, .i32⟩ : BufTy).Contents (Elt Ideal)) (x2 : (⟨S8x128x64, .f32⟩ : BufTy).Contents (Elt Ideal)) (n : Fin 50000) (f : Fin 64) :
    val_main_v108 (F := Ideal) x0 x1 x2 (ix2 n f)
      = Cert.Spec.prod (fun k p j => Cert.RefTerms.term k x0 x1 (ix2 p j)) (fun k j q => x2 (ix3 k j q)) 4 n f := by
  rw [val_main_v108_apply]
  unfold Cert.Spec.prod
  refine Finset.sum_congr rfl fun j _ => ?_
  rw [lidx4, weight4]
  rfl

/-- Entry (n, f) of product 5 is the sum over j of T_5[n, j] · W[5, j, f]. -/
theorem product5 (x0 : (⟨S50000x128, .f32⟩ : BufTy).Contents (Elt Ideal)) (x1 : (⟨S2x800000, .i32⟩ : BufTy).Contents (Elt Ideal)) (x2 : (⟨S8x128x64, .f32⟩ : BufTy).Contents (Elt Ideal)) (n : Fin 50000) (f : Fin 64) :
    val_main_v128 (F := Ideal) x0 x1 x2 (ix2 n f)
      = Cert.Spec.prod (fun k p j => Cert.RefTerms.term k x0 x1 (ix2 p j)) (fun k j q => x2 (ix3 k j q)) 5 n f := by
  rw [val_main_v128_apply]
  unfold Cert.Spec.prod
  refine Finset.sum_congr rfl fun j _ => ?_
  rw [lidx5, weight5]
  rfl

/-- Entry (n, f) of product 6 is the sum over j of T_6[n, j] · W[6, j, f]. -/
theorem product6 (x0 : (⟨S50000x128, .f32⟩ : BufTy).Contents (Elt Ideal)) (x1 : (⟨S2x800000, .i32⟩ : BufTy).Contents (Elt Ideal)) (x2 : (⟨S8x128x64, .f32⟩ : BufTy).Contents (Elt Ideal)) (n : Fin 50000) (f : Fin 64) :
    val_main_v148 (F := Ideal) x0 x1 x2 (ix2 n f)
      = Cert.Spec.prod (fun k p j => Cert.RefTerms.term k x0 x1 (ix2 p j)) (fun k j q => x2 (ix3 k j q)) 6 n f := by
  rw [val_main_v148_apply]
  unfold Cert.Spec.prod
  refine Finset.sum_congr rfl fun j _ => ?_
  rw [lidx6, weight6]
  rfl

/-- Entry (n, f) of product 7 is the sum over j of T_7[n, j] · W[7, j, f]. -/
theorem product7 (x0 : (⟨S50000x128, .f32⟩ : BufTy).Contents (Elt Ideal)) (x1 : (⟨S2x800000, .i32⟩ : BufTy).Contents (Elt Ideal)) (x2 : (⟨S8x128x64, .f32⟩ : BufTy).Contents (Elt Ideal)) (n : Fin 50000) (f : Fin 64) :
    val_main_v168 (F := Ideal) x0 x1 x2 (ix2 n f)
      = Cert.Spec.prod (fun k p j => Cert.RefTerms.term k x0 x1 (ix2 p j)) (fun k j q => x2 (ix3 k j q)) 7 n f := by
  rw [val_main_v168_apply]
  unfold Cert.Spec.prod
  refine Finset.sum_congr rfl fun j _ => ?_
  rw [lidx7, weight7]
  rfl

/-! ## The result -/

/-- Entry (n, f) of the reference's result: the eight products added in the order k = 0, …, 7, plus the bias at f,
    clamped below at zero. -/
theorem ref_value (x0 : (⟨S50000x128, .f32⟩ : BufTy).Contents (Elt Ideal)) (x1 : (⟨S2x800000, .i32⟩ : BufTy).Contents (Elt Ideal)) (x2 : (⟨S8x128x64, .f32⟩ : BufTy).Contents (Elt Ideal)) (x3 : (⟨S64, .f32⟩ : BufTy).Contents (Elt Ideal)) (n : Fin 50000) (f : Fin 64) :
    val_main_v173 (F := Ideal) x0 x1 x2 x3 (ix2 n f)
      = Cert.Spec.comb (fun k p j => Cert.RefTerms.term k x0 x1 (ix2 p j)) (fun k j q => x2 (ix3 k j q))
          (fun q => x3 (ix1 q)) n f := by
  rw [val_main_v173_apply, val_main_v172_apply, val_main_v169_apply, val_main_v149_apply, val_main_v129_apply, val_main_v109_apply, val_main_v89_apply, val_main_v69_apply, val_main_v49_apply,
    product0 x0 x1 x2 n f,
    product1 x0 x1 x2 n f,
    product2 x0 x1 x2 n f,
    product3 x0 x1 x2 n f,
    product4 x0 x1 x2 n f,
    product5 x0 x1 x2 n f,
    product6 x0 x1 x2 n f,
    product7 x0 x1 x2 n f, bias, zeros]
  rfl

/-- The reference's result as one function of the four argument arrays. -/
def refG (x0 : (⟨S50000x128, .f32⟩ : BufTy).Contents (Elt Ideal)) (x1 : (⟨S2x800000, .i32⟩ : BufTy).Contents (Elt Ideal)) (x2 : (⟨S8x128x64, .f32⟩ : BufTy).Contents (Elt Ideal)) (x3 : (⟨S64, .f32⟩ : BufTy).Contents (Elt Ideal)) : (⟨S50000x64, .f32⟩ : BufTy).Contents (Elt Ideal) :=
  fun i => Cert.Spec.comb (fun k p j => Cert.RefTerms.term k x0 x1 (ix2 p j)) (fun k j q => x2 (ix3 k j q))
    (fun q => x3 (ix1 q)) (i 0) (i 1)

/-- The last operation of the reference writes `refG` of the arguments. -/
theorem ref_array (x0 : (⟨S50000x128, .f32⟩ : BufTy).Contents (Elt Ideal)) (x1 : (⟨S2x800000, .i32⟩ : BufTy).Contents (Elt Ideal)) (x2 : (⟨S8x128x64, .f32⟩ : BufTy).Contents (Elt Ideal)) (x3 : (⟨S64, .f32⟩ : BufTy).Contents (Elt Ideal)) :
    val_main_v173 (F := Ideal) x0 x1 x2 x3 = refG x0 x1 x2 x3 := by
  funext i
  obtain ⟨n, f, rfl⟩ : ∃ (n : Fin 50000) (f : Fin 64), i = ix2 n f := ⟨i 0, i 1, eq_ix2 i⟩
  exact ref_value x0 x1 x2 x3 n f

/-- Every weakly fair execution of the reference ends with its result buffer holding `refG` of the four arguments as they were
    at the start, and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v173)
        = refG (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨by rw [(h c).1, val_main_v173_eq, ref_array], (h c).2⟩)
    (Cert.ReferenceIdeal.Value.run (F := Ideal) m ρ)

end Cert.ReferenceIdeal.RefSide

end
-- ==== Proof.HostSide.lean ====
/-
  The host prefix of the kernel program on the extended reals: what the TensorCore buffers hold when the kernel's region
  is entered. The host operations compute the eight Chebyshev terms of the node features over the graph, stack them on a
  new leading axis and narrow the stack and the weights to bf16 (the identity on the extended reals), and view the bias
  as a row. Here the terms are written once as functions of the features and the edge list (`cheb`), the stack is read
  index by index, and the three arrays the kernel's windows stage are identified:
  the stack at (k, n, j) is term k at (n, j); the narrowed weights are the weights; the bias row at (0, q) is the bias at q.
-/
import proofs.«131334_j30210799960803_1_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen
open Idealize.ShloMosaic.ValueIdx

/-- Core `c`'s TensorCore buffers when the kernel's region is entered: the launch contents after the host operations. -/
abbrev V (m : (ℓ : Loc nD τ sig) → Buf (Elt Ideal) ℓ) (c : Dev nD) (b : Ref sig .tc) : Buf (Elt Ideal) ((c : Thread nD τ).loc b) :=
  StableHlo.after (List.flatten [Gen.hostOps0, Gen.hostOps0_1, Gen.hostOps0_2]) (fun b => m (c, b)) b

/-! ## The Chebyshev terms, as the host operations before the kernel compute them

The graph is an edge list `e` (row 0 the source node of each edge, row 1 its target). With `d` the number of edges
leaving each node, the propagation of a feature array `t` adds to each target row the source row scaled by
`-(d_src)^(-1/2) (d_dst)^(-1/2)`; the Chebyshev terms are `T_0 = x`, `T_1 = prop x`, `T_k = 2 · prop T_(k-1) - T_(k-2)`. -/

/-- The source node of each edge. -/
def src (e : IVec S2x800000 32) : IVec S800000 32 :=
  shapeCast S800000 (extractStridedSlice S1x800000 ![0, 0] e slices_S2x800000_S1x800000_0_0) shapeCasts_S1x800000_S800000

/-- The target node of each edge. -/
def dst (e : IVec S2x800000 32) : IVec S800000 32 :=
  shapeCast S800000 (extractStridedSlice S1x800000 ![1, 0] e slices_S2x800000_S1x800000_1_0) shapeCasts_S1x800000_S800000

/-- A node number read the way an indexing operation reads it: a negative one counts from the end. -/
def wrap (i : IVec S800000 32) : IVec S800000 32 :=
  select (cmpi .slt i (broadcastInDim S800000 ![] bcast_S_S800000 (constantI S_ 32 0#32)))
    (addi i (broadcastInDim S800000 ![] bcast_S_S800000 (constantI S_ 32 50000#32))) i

/-- The number of edges leaving each node. -/
def deg (e : IVec S2x800000 32) : FVec Ideal S50000 .f32 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 (src e))
    (broadcastInDim S800000 ![] bcast_S_S800000 (constant (F := Ideal) S_ .f32 0x3F800000#32))

/-- The inverse square root of each node's degree (the degree kept above a small positive floor), zero at a node no edge leaves. -/
def dinv (e : IVec S2x800000 32) : FVec Ideal S50000 .f32 :=
  select (cmpf (F := Ideal) .ogt (deg e) (broadcastInDim S50000 ![] bcast_S_S50000 (constant (F := Ideal) S_ .f32 0x00000000#32)))
    (Host.rsqrt (F := Ideal) (maximumf (F := Ideal) (deg e) (broadcastInDim S50000 ![] bcast_S_S50000 (constant (F := Ideal) S_ .f32 0x2B8CBCCC#32))))
    (broadcastInDim S50000 ![] bcast_S_S50000 (id (constant (F := Ideal) S_ .f32 0x00000000#32)))

/-- Each edge's weight in the normalised adjacency: minus the product of its two nodes' inverse root degrees. -/
def weight (e : IVec S2x800000 32) : FVec Ideal S800000 .f32 :=
  mulf (F := Ideal)
    (Host.negf (F := Ideal) (Host.gather gather_S50000_S800000x1_S800000_n_0_n_n_0_1_1 (dinv e)
      (broadcastInDim S800000x1 ![0] bcast_S800000_S800000x1_0 (wrap (src e)))))
    (Host.gather gather_S50000_S800000x1_S800000_n_0_n_n_0_1_1 (dinv e)
      (broadcastInDim S800000x1 ![0] bcast_S800000_S800000x1_0 (wrap (dst e))))

/-- One propagation along the edges: every edge adds its source row of `t`, times the edge's weight, to its target row. -/
def prop (e : IVec S2x800000 32) (t : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 (dst e))
    (mulf (F := Ideal)
      (broadcastInDim S800000x128 ![0, 1] bcast_S800000x1_S800000x128_0_1 (broadcastInDim S800000x1 ![0] bcast_S800000_S800000x1_0 (weight e)))
      (Host.gather gather_S50000x128_S800000x1_S800000x128_1_0_n_n_0_1_1128 t
        (broadcastInDim S800000x1 ![0] bcast_S800000_S800000x1_0 (wrap (src e)))))

/-- The Chebyshev recurrence: twice the propagation of the last term, minus the one before it. -/
def next (e : IVec S2x800000 32) (t t' : FVec Ideal S50000x128 .f32) : FVec Ideal S50000x128 .f32 :=
  subf (F := Ideal) (mulf (F := Ideal) (broadcastInDim S50000x128 ![] bcast_S_S50000x128 (constant (F := Ideal) S_ .f32 0x40000000#32)) (prop e t)) t'

def t1 (x : FVec Ideal S50000x128 .f32) (e : IVec S2x800000 32) : FVec Ideal S50000x128 .f32 := prop e x
def t2 (x : FVec Ideal S50000x128 .f32) (e : IVec S2x800000 32) : FVec Ideal S50000x128 .f32 := next e (t1 x e) x
def t3 (x : FVec Ideal S50000x128 .f32) (e : IVec S2x800000 32) : FVec Ideal S50000x128 .f32 := next e (t2 x e) (t1 x e)
def t4 (x : FVec Ideal S50000x128 .f32) (e : IVec S2x800000 32) : FVec Ideal S50000x128 .f32 := next e (t3 x e) (t2 x e)
def t5 (x : FVec Ideal S50000x128 .f32) (e : IVec S2x800000 32) : FVec Ideal S50000x128 .f32 := next e (t4 x e) (t3 x e)
def t6 (x : FVec Ideal S50000x128 .f32) (e : IVec S2x800000 32) : FVec Ideal S50000x128 .f32 := next e (t5 x e) (t4 x e)
def t7 (x : FVec Ideal S50000x128 .f32) (e : IVec S2x800000 32) : FVec Ideal S50000x128 .f32 := next e (t6 x e) (t5 x e)

/-- The k-th Chebyshev term of the features `x` over the graph `e`. -/
def cheb (k : Fin 8) (x : FVec Ideal S50000x128 .f32) (e : IVec S2x800000 32) : FVec Ideal S50000x128 .f32 :=
  ![x, t1 x e, t2 x e, t3 x e, t4 x e, t5 x e, t6 x e, t7 x e] k

/-! ## The stack of the eight terms -/

/-- Eight feature arrays stacked along a new leading axis and narrowed to bf16 (the identity on the extended reals). -/
def stack (t0 t1 t2 t3 t4 t5 t6 t7 : FVec Ideal S50000x128 .f32) : FVec Ideal S8x50000x128 .bf16 :=
  truncf (F := Ideal) .bf16 (concatenate S8x50000x128 0
      [⟨S1x50000x128, broadcastInDim S1x50000x128 ![1, 2] bcast_S50000x128_S1x50000x128_1_2 t0⟩,
       ⟨S1x50000x128, broadcastInDim S1x50000x128 ![1, 2] bcast_S50000x128_S1x50000x128_1_2 t1⟩,
       ⟨S1x50000x128, broadcastInDim S1x50000x128 ![1, 2] bcast_S50000x128_S1x50000x128_1_2 t2⟩,
       ⟨S1x50000x128, broadcastInDim S1x50000x128 ![1, 2] bcast_S50000x128_S1x50000x128_1_2 t3⟩,
       ⟨S1x50000x128, broadcastInDim S1x50000x128 ![1, 2] bcast_S50000x128_S1x50000x128_1_2 t4⟩,
       ⟨S1x50000x128, broadcastInDim S1x50000x128 ![1, 2] bcast_S50000x128_S1x50000x128_1_2 t5⟩,
       ⟨S1x50000x128, broadcastInDim S1x50000x128 ![1, 2] bcast_S50000x128_S1x50000x128_1_2 t6⟩,
       ⟨S1x50000x128, broadcastInDim S1x50000x128 ![1, 2] bcast_S50000x128_S1x50000x128_1_2 t7⟩]
      concatenates_S1x50000x128_S1x50000x128_S1x50000x128_S1x50000x128_S1x50000x128_S1x50000x128_S1x50000x128_S1x50000x128_S8x50000x128_d0)
    bitsLt_bf16_f32

/-- A feature array under a new leading axis of extent one, read at an index: the array at the two trailing coordinates. -/
theorem lead_read (x : FVec Ideal S50000x128 .f32) (n : Fin 50000) (j : Fin 128) :
    (broadcastInDim S1x50000x128 ![1, 2] bcast_S50000x128_S1x50000x128_1_2 x : FVec Ideal S1x50000x128 .f32) (ix3 0 n j) = x (ix2 n j) :=
  broadcastInDim_apply ![1, 2] bcast_S50000x128_S1x50000x128_1_2 x (ix3 0 n j) (ix2 n j) (fun a => by
    match a with
    | ⟨0, _⟩ => rfl
    | ⟨1, _⟩ => rfl)

/-- The stack read at an index: the array its leading coordinate names, at the two trailing coordinates. -/
theorem stack_read (t0 t1 t2 t3 t4 t5 t6 t7 : FVec Ideal S50000x128 .f32) (k : Fin 8) (n : Fin 50000) (j : Fin 128) :
    stack t0 t1 t2 t3 t4 t5 t6 t7 (ix3 k n j) = (![t0, t1, t2, t3, t4, t5, t6, t7] k) (ix2 n j) := by
  unfold stack
  rw [truncf_apply]
  have hi : ∀ (kk : Fin 8) (b : Fin S1x50000x128.rank), b.cast (rfl : S1x50000x128.rank = S8x50000x128.rank) ≠ (0 : Fin S8x50000x128.rank) →
      ((ix3 (0 : Fin 1) n j : S1x50000x128.Idx) b).val = ((ix3 kk n j : S8x50000x128.Idx) (b.cast rfl)).val := fun kk b hb => by
    match b with
    | ⟨0, _⟩ => exact absurd rfl hb
    | ⟨1, _⟩ => rfl
    | ⟨2, _⟩ => rfl
  fin_cases k
  · refine Eq.trans (concatenate_apply_piece (t := S8x50000x128) 0 _ _ _ 0 ?_ S1x50000x128 _ ?_ rfl 0 ?_ (ix3 0 n j) (hi _) ?_) (lead_read _ n j)
    · simp
    · rfl
    · rfl
    · rfl
  · refine Eq.trans (concatenate_apply_piece (t := S8x50000x128) 0 _ _ _ 1 ?_ S1x50000x128 _ ?_ rfl 1 ?_ (ix3 0 n j) (hi _) ?_) (lead_read _ n j)
    · simp
    · rfl
    · rfl
    · rfl
  · refine Eq.trans (concatenate_apply_piece (t := S8x50000x128) 0 _ _ _ 2 ?_ S1x50000x128 _ ?_ rfl 2 ?_ (ix3 0 n j) (hi _) ?_) (lead_read _ n j)
    · simp
    · rfl
    · rfl
    · rfl
  · refine Eq.trans (concatenate_apply_piece (t := S8x50000x128) 0 _ _ _ 3 ?_ S1x50000x128 _ ?_ rfl 3 ?_ (ix3 0 n j) (hi _) ?_) (lead_read _ n j)
    · simp
    · rfl
    · rfl
    · rfl
  · refine Eq.trans (concatenate_apply_piece (t := S8x50000x128) 0 _ _ _ 4 ?_ S1x50000x128 _ ?_ rfl 4 ?_ (ix3 0 n j) (hi _) ?_) (lead_read _ n j)
    · simp
    · rfl
    · rfl
    · rfl
  · refine Eq.trans (concatenate_apply_piece (t := S8x50000x128) 0 _ _ _ 5 ?_ S1x50000x128 _ ?_ rfl 5 ?_ (ix3 0 n j) (hi _) ?_) (lead_read _ n j)
    · simp
    · rfl
    · rfl
    · rfl
  · refine Eq.trans (concatenate_apply_piece (t := S8x50000x128) 0 _ _ _ 6 ?_ S1x50000x128 _ ?_ rfl 6 ?_ (ix3 0 n j) (hi _) ?_) (lead_read _ n j)
    · simp
    · rfl
    · rfl
    · rfl
  · refine Eq.trans (concatenate_apply_piece (t := S8x50000x128) 0 _ _ _ 7 ?_ S1x50000x128 _ ?_ rfl 7 ?_ (ix3 0 n j) (hi _) ?_) (lead_read _ n j)
    · simp
    · rfl
    · rfl
    · rfl

/-! ## The module-local call's typed references

The three operations of the called function reach their buffers through typed references, whose contents are
transported along the equation between the buffer's type and the value's type; both are the same literal type, so each
transport is the identity. -/

theorem ofBuf_toBuf {T : BufTy} (x : StableHlo.TRef sig T) (v : T.Contents (Elt Ideal)) : x.ofBuf (x.toBuf v) = v := by
  obtain ⟨r, h, _, _⟩ := x
  subst h
  rfl

theorem ofBuf_cst_3 (p1 p2 p3) (v : main_cst_3.ty.Contents (Elt Ideal)) :
    StableHlo.TRef.ofBuf (T := ⟨S_, .f32⟩) (Val := Elt Ideal) ⟨main_cst_3, p1, p2, p3⟩ v = v := rfl

theorem ofBuf_v9 (p1 p2 p3) (v : main_v9.ty.Contents (Elt Ideal)) :
    StableHlo.TRef.ofBuf (T := ⟨S50000, .i1⟩) (Val := Elt Ideal) ⟨main_v9, p1, p2, p3⟩ v = v := rfl

theorem ofBuf_v12 (p1 p2 p3) (v : main_v12.ty.Contents (Elt Ideal)) :
    StableHlo.TRef.ofBuf (T := ⟨S50000, .f32⟩) (Val := Elt Ideal) ⟨main_v12, p1, p2, p3⟩ v = v := rfl

theorem toBuf_v13 (p1 p2 p3) (v : (⟨S50000, .f32⟩ : BufTy).Contents (Elt Ideal)) :
    StableHlo.TRef.toBuf (T := ⟨S50000, .f32⟩) (Val := Elt Ideal) ⟨main_v13, p1, p2, p3⟩ v = v := rfl

/-! ## The last four host operations

The host prefix ends with the stack of the eight broadcast terms, its narrowing, the weights' narrowing and the bias
viewed as a row. They are split off so that the stack is read over ANY contents of the buffers before them. -/

/-- The last four host operations. -/
abbrev lastOps : List (HloOp τ sig (Elt Ideal)) :=
  [ StableHlo.nary ![main_v139, main_v140, main_v141, main_v142, main_v143, main_v144, main_v145, main_v146] main_v147 (fun u => concatenate S8x50000x128 0 [⟨S1x50000x128, u 0⟩, ⟨S1x50000x128, u 1⟩, ⟨S1x50000x128, u 2⟩, ⟨S1x50000x128, u 3⟩, ⟨S1x50000x128, u 4⟩, ⟨S1x50000x128, u 5⟩, ⟨S1x50000x128, u 6⟩, ⟨S1x50000x128, u 7⟩] concatenates_S1x50000x128_S1x50000x128_S1x50000x128_S1x50000x128_S1x50000x128_S1x50000x128_S1x50000x128_S1x50000x128_S8x50000x128_d0),
    StableHlo.unary main_v147 main_v148 ((fun x => truncf (F := Ideal) .bf16 x bitsLt_bf16_f32) : (⟨S8x50000x128, .f32⟩ : BufTy).Contents (Elt Ideal) → (⟨S8x50000x128, .bf16⟩ : BufTy).Contents (Elt Ideal)),
    StableHlo.unary main_arg2 main_v149 ((fun x => truncf (F := Ideal) .bf16 x bitsLt_bf16_f32) : (⟨S8x128x64, .f32⟩ : BufTy).Contents (Elt Ideal) → (⟨S8x128x64, .bf16⟩ : BufTy).Contents (Elt Ideal)),
    StableHlo.reshape main_arg3 main_v150 rfl shapeCasts_S64_S1x64 ]

/-- The host operations before the last four. -/
abbrev firstOps : List (HloOp τ sig (Elt Ideal)) :=
  Gen.hostOps0 ++ (Gen.hostOps0_1 ++ List.take 164 Gen.hostOps0_2)

set_option maxHeartbeats 4000000 in
theorem ops_split : List.flatten [Gen.hostOps0, Gen.hostOps0_1, (Gen.hostOps0_2 : List (HloOp τ sig (Elt Ideal)))] = firstOps ++ lastOps := by
  have hd : List.drop 164 (Gen.hostOps0_2 : List (HloOp τ sig (Elt Ideal))) = lastOps := rfl
  rw [← hd]
  simp only [firstOps, List.flatten_cons, List.flatten_nil, List.append_nil, List.append_assoc, List.take_append_drop]

/-- Core `c`'s buffers before the last four host operations. -/
abbrev W (m : (ℓ : Loc nD τ sig) → Buf (Elt Ideal) ℓ) (c : Dev nD) : Valuation τ sig (Elt Ideal) :=
  StableHlo.after firstOps (fun b => m (c, b))

theorem V_eq (m : (ℓ : Loc nD τ sig) → Buf (Elt Ideal) ℓ) (c : Dev nD) (b : Ref sig .tc) :
    V m c b = StableHlo.after lastOps (W m c) (Proc.devRef .tc b) := by
  dsimp only [V, W]
  rw [ops_split, StableHlo.after_append]

/-- The stacked buffer after the last four operations, over any contents before them. -/
theorem last_stack (U : Valuation τ sig (Elt Ideal)) :
    (StableHlo.after lastOps U (Proc.devRef .tc main_v148) : S8x50000x128.Idx → EReal)
      = truncf (F := Ideal) .bf16 (concatenate S8x50000x128 0
          [⟨S1x50000x128, U (Proc.devRef .tc main_v139)⟩, ⟨S1x50000x128, U (Proc.devRef .tc main_v140)⟩,
           ⟨S1x50000x128, U (Proc.devRef .tc main_v141)⟩, ⟨S1x50000x128, U (Proc.devRef .tc main_v142)⟩,
           ⟨S1x50000x128, U (Proc.devRef .tc main_v143)⟩, ⟨S1x50000x128, U (Proc.devRef .tc main_v144)⟩,
           ⟨S1x50000x128, U (Proc.devRef .tc main_v145)⟩, ⟨S1x50000x128, U (Proc.devRef .tc main_v146)⟩]
          concatenates_S1x50000x128_S1x50000x128_S1x50000x128_S1x50000x128_S1x50000x128_S1x50000x128_S1x50000x128_S1x50000x128_S8x50000x128_d0) bitsLt_bf16_f32 := by
  dsimp only [lastOps]
  after_results
  rfl

/-- The last four operations leave the eight broadcast terms in place. -/
theorem last_keep (U : Valuation τ sig (Elt Ideal)) :
    StableHlo.after lastOps U (Proc.devRef .tc main_v139) = U (Proc.devRef .tc main_v139)
    ∧ StableHlo.after lastOps U (Proc.devRef .tc main_v140) = U (Proc.devRef .tc main_v140)
    ∧ StableHlo.after lastOps U (Proc.devRef .tc main_v141) = U (Proc.devRef .tc main_v141)
    ∧ StableHlo.after lastOps U (Proc.devRef .tc main_v142) = U (Proc.devRef .tc main_v142)
    ∧ StableHlo.after lastOps U (Proc.devRef .tc main_v143) = U (Proc.devRef .tc main_v143)
    ∧ StableHlo.after lastOps U (Proc.devRef .tc main_v144) = U (Proc.devRef .tc main_v144)
    ∧ StableHlo.after lastOps U (Proc.devRef .tc main_v145) = U (Proc.devRef .tc main_v145)
    ∧ StableHlo.after lastOps U (Proc.devRef .tc main_v146) = U (Proc.devRef .tc main_v146) := by
  dsimp only [lastOps]
  refine ⟨?_, ?_, ?_, ?_, ?_, ?_, ?_, ?_⟩ <;> after_results

/-! ## The eight broadcast terms -/

set_option maxHeartbeats 40000000 in
/-- The first broadcast buffer holds the features under a new leading axis. -/
theorem V_lead0 (m : (ℓ : Loc nD τ sig) → Buf (Elt Ideal) ℓ) (c : Dev nD) :
    (V m c main_v139 : S1x50000x128.Idx → EReal) = broadcastInDim S1x50000x128 ![1, 2] bcast_S50000x128_S1x50000x128_1_2 (m ((c : Thread nD τ).loc main_arg0)) := by
  dsimp only [V]
  simp only [Gen.hostOps0, Gen.hostOps0_1, Gen.hostOps0_2, List.flatten_cons, List.flatten_nil, List.append_nil, List.cons_append, List.nil_append]
  simp (disch := decide) only [after_cons, after_nil, nullary_result', unary_result', binary_result', ternary_result', reshape_result', nullary_result_ne', unary_result_ne', binary_result_ne', ternary_result_ne', reshape_result_ne', nary_result_ne', ofBuf_toBuf, ofBuf_cst_3, ofBuf_v9, ofBuf_v12, toBuf_v13]

set_option maxHeartbeats 100000000 in
/-- The other seven broadcast buffers hold the Chebyshev terms T_1 … T_7 under a new leading axis: the host operations'
    composed terms are the definitions above, operation by operation. -/
theorem V_leads (m : (ℓ : Loc nD τ sig) → Buf (Elt Ideal) ℓ) (c : Dev nD) :
    (V m c main_v140 : S1x50000x128.Idx → EReal) = broadcastInDim S1x50000x128 ![1, 2] bcast_S50000x128_S1x50000x128_1_2 (t1 (m ((c : Thread nD τ).loc main_arg0)) (m ((c : Thread nD τ).loc main_arg1)))
    ∧ (V m c main_v141 : S1x50000x128.Idx → EReal) = broadcastInDim S1x50000x128 ![1, 2] bcast_S50000x128_S1x50000x128_1_2 (t2 (m ((c : Thread nD τ).loc main_arg0)) (m ((c : Thread nD τ).loc main_arg1)))
    ∧ (V m c main_v142 : S1x50000x128.Idx → EReal) = broadcastInDim S1x50000x128 ![1, 2] bcast_S50000x128_S1x50000x128_1_2 (t3 (m ((c : Thread nD τ).loc main_arg0)) (m ((c : Thread nD τ).loc main_arg1)))
    ∧ (V m c main_v143 : S1x50000x128.Idx → EReal) = broadcastInDim S1x50000x128 ![1, 2] bcast_S50000x128_S1x50000x128_1_2 (t4 (m ((c : Thread nD τ).loc main_arg0)) (m ((c : Thread nD τ).loc main_arg1)))
    ∧ (V m c main_v144 : S1x50000x128.Idx → EReal) = broadcastInDim S1x50000x128 ![1, 2] bcast_S50000x128_S1x50000x128_1_2 (t5 (m ((c : Thread nD τ).loc main_arg0)) (m ((c : Thread nD τ).loc main_arg1)))
    ∧ (V m c main_v145 : S1x50000x128.Idx → EReal) = broadcastInDim S1x50000x128 ![1, 2] bcast_S50000x128_S1x50000x128_1_2 (t6 (m ((c : Thread nD τ).loc main_arg0)) (m ((c : Thread nD τ).loc main_arg1)))
    ∧ (V m c main_v146 : S1x50000x128.Idx → EReal) = broadcastInDim S1x50000x128 ![1, 2] bcast_S50000x128_S1x50000x128_1_2 (t7 (m ((c : Thread nD τ).loc main_arg0)) (m ((c : Thread nD τ).loc main_arg1))) := by
  dsimp only [V]
  simp only [Gen.hostOps0, Gen.hostOps0_1, Gen.hostOps0_2, List.flatten_cons, List.flatten_nil, List.append_nil, List.cons_append, List.nil_append]
  simp (disch := decide) only [after_cons, after_nil, nullary_result', unary_result', binary_result', ternary_result', reshape_result', nullary_result_ne', unary_result_ne', binary_result_ne', ternary_result_ne', reshape_result_ne', nary_result_ne', ofBuf_toBuf, ofBuf_cst_3, ofBuf_v9, ofBuf_v12, toBuf_v13]
  refine ⟨?_, ?_, ?_, ?_, ?_, ?_, ?_⟩ <;> rfl

/-! ## The three arrays the kernel stages -/

/-- The stacked buffer holds the stack of the eight Chebyshev terms of the launched features over the launched graph. -/
theorem V_stack (m : (ℓ : Loc nD τ sig) → Buf (Elt Ideal) ℓ) (c : Dev nD) :
    (V m c main_v148 : S8x50000x128.Idx → EReal)
      = stack (m ((c : Thread nD τ).loc main_arg0)) (t1 (m ((c : Thread nD τ).loc main_arg0)) (m ((c : Thread nD τ).loc main_arg1))) (t2 (m ((c : Thread nD τ).loc main_arg0)) (m ((c : Thread nD τ).loc main_arg1))) (t3 (m ((c : Thread nD τ).loc main_arg0)) (m ((c : Thread nD τ).loc main_arg1))) (t4 (m ((c : Thread nD τ).loc main_arg0)) (m ((c : Thread nD τ).loc main_arg1))) (t5 (m ((c : Thread nD τ).loc main_arg0)) (m ((c : Thread nD τ).loc main_arg1))) (t6 (m ((c : Thread nD τ).loc main_arg0)) (m ((c : Thread nD τ).loc main_arg1))) (t7 (m ((c : Thread nD τ).loc main_arg0)) (m ((c : Thread nD τ).loc main_arg1))) := by
  obtain ⟨k0, k1, k2, k3, k4, k5, k6, k7⟩ := last_keep (W m c)
  obtain ⟨h1, h2, h3, h4, h5, h6, h7⟩ := V_leads m c
  have h0 := V_lead0 m c
  rw [V_eq] at h0 h1 h2 h3 h4 h5 h6 h7
  rw [k0] at h0
  rw [k1] at h1
  rw [k2] at h2
  rw [k3] at h3
  rw [k4] at h4
  rw [k5] at h5
  rw [k6] at h6
  rw [k7] at h7
  rw [V_eq, last_stack, h0, h1, h2, h3, h4, h5, h6, h7]
  rfl

/-- The stacked buffer at (k, n, j) is the k-th Chebyshev term at (n, j). -/
theorem stack_apply (m : (ℓ : Loc nD τ sig) → Buf (Elt Ideal) ℓ) (c : Dev nD) (k : Fin 8) (n : Fin 50000) (j : Fin 128) :
    (V m c main_v148 : S8x50000x128.Idx → EReal) (ix3 k n j) = cheb k (m ((c : Thread nD τ).loc main_arg0)) (m ((c : Thread nD τ).loc main_arg1)) (ix2 n j) := by
  rw [V_stack, stack_read]
  rfl

set_option maxHeartbeats 40000000 in
theorem V_weights (m : (ℓ : Loc nD τ sig) → Buf (Elt Ideal) ℓ) (c : Dev nD) :
    (V m c main_v149 : S8x128x64.Idx → EReal) = (m ((c : Thread nD τ).loc main_arg2) : S8x128x64.Idx → EReal) := by
  dsimp only [V]
  simp only [Gen.hostOps0, Gen.hostOps0_1, Gen.hostOps0_2, List.flatten_cons, List.flatten_nil, List.append_nil, List.cons_append, List.nil_append]
  after_results_simp
  rfl

/-- The narrowed weights are the launched weights. -/
theorem w_apply (m : (ℓ : Loc nD τ sig) → Buf (Elt Ideal) ℓ) (c : Dev nD) (k : Fin 8) (j : Fin 128) (q : Fin 64) :
    (V m c main_v149 : S8x128x64.Idx → EReal) (ix3 k j q) = (m ((c : Thread nD τ).loc main_arg2) : S8x128x64.Idx → EReal) (ix3 k j q) := by
  rw [V_weights]

set_option maxHeartbeats 40000000 in
theorem V_bias (m : (ℓ : Loc nD τ sig) → Buf (Elt Ideal) ℓ) (c : Dev nD) :
    (V m c main_v150 : S1x64.Idx → EReal) = shapeCast S1x64 (m ((c : Thread nD τ).loc main_arg3) : S64.Idx → EReal) shapeCasts_S64_S1x64 := by
  dsimp only [V]
  simp only [Gen.hostOps0, Gen.hostOps0_1, Gen.hostOps0_2, List.flatten_cons, List.flatten_nil, List.append_nil, List.cons_append, List.nil_append]
  after_results_simp
  rfl

/-- The bias viewed as a row, at (0, q), is the launched bias at q. -/
theorem b_apply (m : (ℓ : Loc nD τ sig) → Buf (Elt Ideal) ℓ) (c : Dev nD) (q : Fin 64) :
    (V m c main_v150 : S1x64.Idx → EReal) (ix2 0 q) = (m ((c : Thread nD τ).loc main_arg3) : S64.Idx → EReal) (ix1 q) := by
  rw [V_bias]
  refine shapeCast_apply _ _ _ _ ?_
  show (S64.rowMajor (ix1 q)).val = (S1x64.rowMajor (ix2 0 q)).val
  rw [Shape.rowMajor_val_one, Shape.rowMajor_val_two]
  show (q : Nat) = ((0 : Fin 1) : Nat) * 64 + (q : Nat)
  simp

end Cert.KernelIdeal.HostSide

end
-- ==== Proof.TermBridge.lean ====
/-
  The Chebyshev terms of the two programs agree. The reference program and the kernel program compute the terms
  T_0, …, T_7 of the node features by the same host operations in the same order — the degrees by a scatter-add of ones,
  their inverse square roots, the edge weights, and for each term a gather of the previous one, a scaling by the edge
  weights and a scatter-add, doubled and reduced by the term before —, so each term as the reference's operations
  compose it is, operation by operation, the term as the kernel program's host operations compose it.
-/
import proofs.«131334_j30210799960803_1_alg».proof.Proof.RefTerms
import proofs.«131334_j30210799960803_1_alg».proof.Proof.HostSide

noncomputable section

namespace Cert.TermBridge

open Idealize.ShloMosaic

set_option maxHeartbeats 8000000 in
/-- The k-th Chebyshev term as the reference program computes it is the k-th term as the kernel program's host
    operations compute it, as whole arrays, for any features `x` and edge list `e`. -/
theorem term_eq_cheb (k : Fin 8) (x : FVec Ideal Cert.KernelIdeal.S50000x128 .f32) (e : IVec Cert.KernelIdeal.S2x800000 32) :
    Cert.RefTerms.term k x e = Cert.KernelIdeal.HostSide.cheb k x e := by
  fin_cases k <;> rfl

end Cert.TermBridge

end
-- ==== Proof.Bridge.lean ====
/-
  The two programs compute one function of the four argument arrays.

  The idealized kernel's result is the specification (relu of the eight products added in the order k = 0, …, 7, plus
  the bias) over the three arrays its region stages: the eight Chebyshev terms stacked into one [8, 50000, 128] array,
  the weights, and the bias as one row. The reference's result is the same specification over its own eight terms, the
  weight array and the bias. The stack holds, slab by slab, the same eight terms — both programs compute them from the
  features and the edges by the same operations —, the staged weights are the weight array (a change of float format is
  the identity on the extended reals), and the one-row bias is the bias. So the two results agree entry by entry, with
  no rearrangement of any sum and no use of finiteness.
-/
import proofs.«131334_j30210799960803_1_alg».proof.Proof.KIFinal
import proofs.«131334_j30210799960803_1_alg».proof.Proof.HostSide
import proofs.«131334_j30210799960803_1_alg».proof.Proof.TermBridge
import proofs.«131334_j30210799960803_1_alg».proof.Proof.RefSide

noncomputable section

namespace Cert.Bridge

open Idealize.ShloMosaic Idealize.ShloMosaic.TcCoe Idealize.ShloMosaic.ValueIdx Idealize.SL.Sem
open Cert.KernelIdeal

variable (m : (ℓ : Loc nD τ sig) → Buf (Elt Ideal) ℓ) (c : Dev nD)

/-- The staged stack holds the reference's eight terms: slab k, row p, column j is entry (p, j) of the k-th term. -/
theorem terms_eq :
    Val.Tk m c = fun k p j => Cert.RefTerms.term k (m ((c.tc : Thread nD τ).loc main_arg0))
      (m ((c.tc : Thread nD τ).loc main_arg1)) (ix2 p j) := by
  funext k p j
  exact (HostSide.stack_apply m c k p j).trans
    (congrFun (Cert.TermBridge.term_eq_cheb k (m ((c.tc : Thread nD τ).loc main_arg0))
      (m ((c.tc : Thread nD τ).loc main_arg1))).symm (ix2 p j))

/-- The staged weights are the weight array. -/
theorem weights_eq :
    Val.Wk m c = fun k j q => m ((c.tc : Thread nD τ).loc main_arg2) (ix3 k j q) := by
  funext k j q
  exact HostSide.w_apply m c k j q

/-- The staged one-row bias is the bias. -/
theorem bias_eq :
    Val.bk m c = fun q => m ((c.tc : Thread nD τ).loc main_arg3) (ix1 q) := by
  funext q
  exact HostSide.b_apply m c q

/-- The idealized kernel's result is the reference's result function of the kernel's own argument arrays. -/
theorem G_eq :
    Val.G m c = Cert.ReferenceIdeal.RefSide.refG (m ((c.tc : Thread nD τ).loc main_arg0))
      (m ((c.tc : Thread nD τ).loc main_arg1)) (m ((c.tc : Thread nD τ).loc main_arg2))
      (m ((c.tc : Thread nD τ).loc main_arg3)) := by
  funext idx
  unfold Val.G Cert.ReferenceIdeal.RefSide.refG
  rw [terms_eq, weights_eq, bias_eq]

end Cert.Bridge

end
-- ==== Proof.lean ====
/-
  The certificate of a Chebyshev graph convolution with eight terms: out = relu (∑_k T_k · W_k + b), where T_0 = x,
  T_1 = L x, T_k = 2 L T_(k-1) - T_(k-2) (L the propagation along the edges with the degree-normalised weights) are
  computed from the node features x and the edge list by gathers and scatter-adds, W_k is the k-th [128, 64] weight
  matrix and b the bias.

  The kernel program computes the eight terms on the host, stacks them, and a tiled kernel accumulates the eight
  products T_k · W_k over a grid axis, adding the bias and clamping at zero at the last step; the reference adds the
  products one after the other on the host. On the extended reals both end with the same function of the arguments,
  entry (n, f) being
      max (((((((P_0 + P_1) + P_2) + P_3) + P_4) + P_5) + P_6) + P_7 + b f) 0,   P_k = ∑_j T_k[n, j] · W[k, j, f],
  with the products added in the same order on both sides, so the agreement needs no law of arithmetic beyond reading
  each side index by index (and the precondition is never opened).

  The five claims: the three programs run and leave their arguments unchanged; the idealized kernel is the kernel's
  own text read on the extended reals (nothing was rewritten); and the idealized kernel and the reference, from
  memories agreeing on the arguments, end with equal results.
-/
import proofs.«131334_j30210799960803_1_alg».proof.Defs
import proofs.«131334_j30210799960803_1_alg».proof.Proof.Gen.Kernel
import proofs.«131334_j30210799960803_1_alg».proof.Proof.Gen.KernelIdeal
import proofs.«131334_j30210799960803_1_alg».proof.Proof.Gen.ReferenceIdeal
import proofs.«131334_j30210799960803_1_alg».proof.Proof.Gen.Pre_finite_inputs
import proofs.«131334_j30210799960803_1_alg».proof.Proof.KFrame
import proofs.«131334_j30210799960803_1_alg».proof.Proof.KIFrame
import proofs.«131334_j30210799960803_1_alg».proof.Proof.KIFinal
import proofs.«131334_j30210799960803_1_alg».proof.Proof.RefSide
import proofs.«131334_j30210799960803_1_alg».proof.Proof.Bridge
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Frm.frame m ρ

/-- So does the idealized kernel. -/
theorem frame_kernel_ideal : Cert.frame_KernelIdeal := fun m ρ _ => Cert.KernelIdeal.Frm.frame m ρ

/-- The reference is host operations only: its run, with the result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals, so there is nothing to preserve. -/
theorem preserves : Cert.preserves_Kernel_KernelIdeal := trivial

/-- On the extended reals, from memories that agree on the four arguments, the kernel's result array and the
    reference's are one function of those arguments: relu of the eight products added in the order k = 0, …, 7, plus
    the bias. -/
theorem algebraic : Cert.algebraic_KernelIdeal_ReferenceIdeal := by
  intro m ρ m' ρ' _ hagree
  refine ⟨fun c => Cert.KernelIdeal.Val.G m c, Cert.KernelIdeal.Val.run m ρ, ?_⟩
  refine (θ_run Cert.ReferenceIdeal.defs _ _).mono (fun _ h c => ⟨(h c).1.trans ?_, (h c).2⟩)
    (Cert.ReferenceIdeal.RefSide.ref_run m' ρ')
  rw [(hagree c).1, (hagree c).2.1, (hagree c).2.2.1, (hagree c).2.2.2]
  exact (Cert.Bridge.G_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
